-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S4x16384x512 : Shape := ⟨3, ![4, 16384, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4x16384x512 : S_.BroadcastsInDim S4x16384x512 (![] : Fin 0 → Fin S4x16384x512.rank)
  reducesTo_S4x16384x512_S_d0_1_2 : S4x16384x512.ReducesTo [0, 1, 2] S_

variable [Facts]

def fn {F : FTy → Type} [FloatOps F] (main_arg0 : FVec F S16384x512 .f32) (main_arg1 : FVec F S4x16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S4x16384x512 .f32 := Host.absf main_arg1
  let main_cst_0 : FVec F S_ .f32 := constant S_ .f32 0x7F800000#32
  let main_v5 : FVec F S4x16384x512 .f32 := broadcastInDim S4x16384x512 ![] bcast_S_S4x16384x512 main_cst_0
  let main_v6 : IVec S4x16384x512 1 := cmpf .olt main_v4 main_v5
  let main_c_1 : IVec S_ 1 := constantI S_ 1 1#1
  let main_v7 : IVec S_ 1 := (fun x v => Host.reduce IntOp.andi x v reducesTo_S4x16384x512_S_d0_1_2 h_S_) main_v6 main_c_1
  let main_v8 : IVec S_ 1 := andi main_v3 main_v7
  main_v8
-- ==== Kernel.lean ====
abbrev S16384x512 : Shape := ⟨2, ![16384, 512]⟩
abbrev S4x16384x512 : Shape := ⟨3, ![4, 16384, 512]⟩
abbrev S2x8x128 : Shape := ⟨3, ![2, 8, 128]⟩
abbrev S1024x512 : Shape := ⟨2, ![1024, 512]⟩
abbrev S4x1024x512 : Shape := ⟨3, ![4, 1024, 512]⟩
abbrev S1x8x128 : Shape := ⟨3, ![1, 8, 128]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S1x1x1 : Shape := ⟨3, ![1, 1, 1]⟩
abbrev S1x1024x512 : Shape := ⟨3, ![1, 1024, 512]⟩
abbrev S2x1x1 : Shape := ⟨3, ![2, 1, 1]⟩
abbrev S2 : Shape := ⟨1, ![2]⟩
abbrev S_ : Shape := ⟨0, ![]⟩

abbrev nBuf : Space → Nat
  | .hbm => 15
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S4x16384x512, .f32⟩
  | .hbm, ⟨2, _⟩ => ⟨S2x8x128, .f32⟩
  | .hbm, ⟨3, _⟩ => ⟨S2x8x128, .f32⟩
  | .hbm, ⟨4, _⟩ => ⟨S2x1x1, .f32⟩
  | .hbm, ⟨5, _⟩ => ⟨S2, .f32⟩
  | .hbm, ⟨6, _⟩ => ⟨S_, .f32⟩
  | .hbm, ⟨7, _⟩ => ⟨S_, .f32⟩
  | .hbm, ⟨8, _⟩ => ⟨S2x1x1, .f32⟩
  | .hbm, ⟨9, _⟩ => ⟨S2, .f32⟩
  | .hbm, ⟨10, _⟩ => ⟨S_, .f32⟩
  | .hbm, ⟨11, _⟩ => ⟨S_, .f32⟩
  | .hbm, ⟨12, _⟩ => ⟨S1, .f32⟩
  | .hbm, ⟨13, _⟩ => ⟨S1, .f32⟩
  | .hbm, ⟨14, _⟩ => ⟨S2, .f32⟩
  | .local _ .vmem, ⟨0, _⟩ => ⟨S1024x512, .f32⟩
  | .local _ .vmem, ⟨1, _⟩ => ⟨S1024x512, .f32⟩
  | .local _ .vmem, ⟨2, _⟩ => ⟨S4x1024x512, .f32⟩
  | .local _ .vmem, ⟨3, _⟩ => ⟨S4x1024x512, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  reduces_S1024x1_S1 : S1024x1.Reduces [0] S1
  shapeCasts_S1_S1x1 : S1.ShapeCasts S1x1
  shapeCasts_S1x8x128_S1x8x128 : S1x8x128.ShapeCasts S1x8x128
  shapeCasts_S1x1_S1x1x1 : S1x1.ShapeCasts S1x1x1
  broadcasts_S1x1x1_S1x8x128 : S1x1x1.Broadcasts S1x8x128
  inb_S4x1024x512_S1x1024x512_0_0_0 : ∀ a, (![0, 0, 0] : Fin 3 → Nat) a + S1x1024x512.size a ≤ S4x1024x512.size a
  h_S1x1024x512 : 0 < S1x1024x512.numel
  shapeCasts_S1x1024x512_S1024x512 : S1x1024x512.ShapeCasts S1024x512
  inb_S4x1024x512_S1x1024x512_1_0_0 : ∀ a, (![1, 0, 0] : Fin 3 → Nat) a + S1x1024x512.size a ≤ S4x1024x512.size a
  inb_S4x1024x512_S1x1024x512_2_0_0 : ∀ a, (![2, 0, 0] : Fin 3 → Nat) a + S1x1024x512.size a ≤ S4x1024x512.size a
  inb_S4x1024x512_S1x1024x512_3_0_0 : ∀ a, (![3, 0, 0] : Fin 3 → Nat) a + S1x1024x512.size a ≤ S4x1024x512.size a
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  bcast_S_S1 : S_.BroadcastsInDim S1 (![] : Fin 0 → Fin S1.rank)
  concatenates_S1_S1_S2_d0 : Shape.Concatenates [S1, S1] S2 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1024x512.size a ≤ S4x16384x512.size a
  hwx0_1 : ∀ i : grid0.Coords, EltTy.bits .f32 = 32 ∨ (Rect.block (s := S4x16384x512) S4x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x512 : Shape := ⟨2, ![16384, 512]⟩
abbrev S4x16384x512 : Shape := ⟨3, ![4, 16384, 512]⟩
abbrev S_ : Shape := ⟨0, ![]⟩
abbrev S16384 : Shape := ⟨1, ![16384]⟩
abbrev S16384x1 : Shape := ⟨2, ![16384, 1]⟩
abbrev S4x16384 : Shape := ⟨2, ![4, 16384]⟩
abbrev S4x16384x1 : Shape := ⟨3, ![4, 16384, 1]⟩
abbrev S1x16384x512 : Shape := ⟨3, ![1, 16384, 512]⟩
abbrev S1 : Shape := ⟨1, ![1]⟩
abbrev S2 : Shape := ⟨1, ![2]⟩

abbrev nBuf : Space → Nat
  | .hbm => 35
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S4x16384x512, .f32⟩
  | .hbm, ⟨2, _⟩ => ⟨S16384x512, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S16384x512, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x512, .f32⟩
  | .hbm, ⟨15, _⟩ => ⟨S16384x512, .f32⟩
  | .hbm, ⟨16, _⟩ => ⟨S4x16384x512, .f32⟩
  | .hbm, ⟨17, _⟩ => ⟨S_, .f32⟩
  | .hbm, ⟨18, _⟩ => ⟨S4x16384, .f32⟩
  | .hbm, ⟨19, _⟩ => ⟨S4x16384x1, .f32⟩
  | .hbm, ⟨20, _⟩ => ⟨S4x16384x1, .f32⟩
  | .hbm, ⟨21, _⟩ => ⟨S_, .f32⟩
  | .hbm, ⟨22, _⟩ => ⟨S4x16384x1, .f32⟩
  | .hbm, ⟨23, _⟩ => ⟨S4x16384x1, .f32⟩
  | .hbm, ⟨24, _⟩ => ⟨S4x16384x512, .f32⟩
  | .hbm, ⟨25, _⟩ => ⟨S4x16384x512, .f32⟩
  | .hbm, ⟨26, _⟩ => ⟨S1x16384x512, .f32⟩
  | .hbm, ⟨27, _⟩ => ⟨S4x16384x512, .f32⟩
  | .hbm, ⟨28, _⟩ => ⟨S4x16384x512, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S2, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call1_v0 : Ref sig .tc := ⟨.hbm, 16, rfl⟩
abbrev main_call1_cst : Ref sig .tc := ⟨.hbm, 17, rfl⟩
abbrev main_call1_v1 : Ref sig .tc := ⟨.hbm, 18, rfl⟩
abbrev main_call1_v2 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]

class Facts₀ : Prop where
  reducesTo_S16384x512_S_d0_1 : S16384x512.ReducesTo [0, 1] S_
  h_S_ : 0 < S_.numel
  reducesTo_S16384x512_S16384_d1 : S16384x512.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  reducesTo_S4x16384x512_S4x16384_d2 : S4x16384x512.ReducesTo [2] S4x16384
  bcast_S4x16384_S4x16384x1_0_1 : S4x16384.BroadcastsInDim S4x16384x1 (![0, 1] : Fin 2 → Fin S4x16384x1.rank)
  bcast_S_S4x16384x1 : S_.BroadcastsInDim S4x16384x1 (![] : Fin 0 → Fin S4x16384x1.rank)
  bcast_S4x16384x1_S4x16384x512_0_1_2 : S4x16384x1.BroadcastsInDim S4x16384x512 (![0, 1, 2] : Fin 3 → Fin S4x16384x512.rank)
  bcast_S16384x512_S1x16384x512_1_2 : S16384x512.BroadcastsInDim S1x16384x512 (![1, 2] : Fin 2 → Fin S1x16384x512.rank)
  bcast_S1x16384x512_S4x16384x512_0_1_2 : S1x16384x512.BroadcastsInDim S4x16384x512 (![0, 1, 2] : Fin 3 → Fin S4x16384x512.rank)
  reducesTo_S4x16384x512_S_d0_1_2 : S4x16384x512.ReducesTo [0, 1, 2] S_
  bcast_S_S1 : S_.BroadcastsInDim S1 (![] : Fin 0 → Fin S1.rank)
  concatenates_S1_S1_S2_d0 : Shape.Concatenates [S1, S1] S2 0

variable [Facts₀]

class Facts : Prop extends Facts₀ where

variable [Facts]
-- ==== Proof.KPieces.lean ====
/-
  What one grid step leaves in the two accumulator blocks.

  A grid step reads a block x0 of 1024 rows of zc and the matching block x1 of zs (4 x 1024 rows).  When the step is the
  first of its run of eight it first clears both accumulators; then it adds to the first accumulator the negated
  sum of squares of x0, and to the second the negated sum over the four slabs of x1 and the 1024 rows of the cosines.
  Here the contents of the two accumulator blocks after the step are identified with the step's arithmetic, written
  as functions (accC, accS) of the input blocks and of the accumulator's previous contents.
-/
import proofs.«121926_j36155034697795_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Slab v of a block of zs: its 1024 x 512 rows with leading coordinate v. -/
abbrev slab0 (x1 : Vec F S4x1024x512 .f32) : Vec F S1x1024x512 .f32 :=
  View.ld x1 (Rect.unit (s := S4x1024x512) ![0, 0, 0] S1x1024x512.size inb_S4x1024x512_S1x1024x512_0_0_0)
abbrev slab1 (x1 : Vec F S4x1024x512 .f32) : Vec F S1x1024x512 .f32 :=
  View.ld x1 (Rect.unit (s := S4x1024x512) ![1, 0, 0] S1x1024x512.size inb_S4x1024x512_S1x1024x512_1_0_0)
abbrev slab2 (x1 : Vec F S4x1024x512 .f32) : Vec F S1x1024x512 .f32 :=
  View.ld x1 (Rect.unit (s := S4x1024x512) ![2, 0, 0] S1x1024x512.size inb_S4x1024x512_S1x1024x512_2_0_0)
abbrev slab3 (x1 : Vec F S4x1024x512 .f32) : Vec F S1x1024x512 .f32 :=
  View.ld x1 (Rect.unit (s := S4x1024x512) ![3, 0, 0] S1x1024x512.size inb_S4x1024x512_S1x1024x512_3_0_0)

/-- The first accumulator after a step: its previous contents xo plus the negated sum of squares of x0. -/
def accC (x0 : Vec F S1024x512 .f32) (xo : Vec F S1x8x128 .f32) : Vec F S1x8x128 .f32 := k0_pay5 x0 xo

/-- The second accumulator after a step: its previous contents xo plus the negated sum of the cosines of the rows of x0
    against the rows of the four slabs of x1. -/
def accS (x0 : Vec F S1024x512 .f32) (x1 : Vec F S4x1024x512 .f32) (xo : Vec F S1x8x128 .f32) : Vec F S1x8x128 .f32 :=
  k0_pay1 x0 (k0_pay6 x0)
    (k0_pay9 x0 (k0_pay6 x0) k0_pay7 (k0_pay8 x0 (slab0 x1)) (slab1 x1) (slab2 x1))
    (k0_pay10 (slab3 x1)) (k0_pay11 (slab3 x1)) xo

/-- The cleared accumulator. -/
abbrev zeroBlk : Vec F S1x8x128 .f32 := broadcast S1x8x128 (Scalar.ofBits .f32 0x00000000#32)

theorem out_B_2 (c : Dev nD) (i : grid0.Coords) (a2 : Memref sig .tc .vmem S1024x512 .f32) (h2 : a2.IsWhole) (a3 : Memref sig .tc .vmem S4x1024x512 .f32) (h3 : a3.IsWhole) (a4 : Memref sig .tc .vmem S1x8x128 .f32) (h4 : a4.IsWhole) (a5 : Memref sig .tc .vmem S1x8x128 .f32) (h5 : a5.IsWhole) (hc : ¬cond0_0 i)
    (x0 : Vec F S1024x512 .f32) (x1 : Vec F S4x1024x512 .f32) (xo2 xo3 : Vec F S1x8x128 .f32) :
    out0_B_2 c i a2 h2 a3 h3 a4 h4 a5 h5 hc x0 x1 xo2 xo3 = accC x0 xo2 := by
  unfold out0_B_2
  rw [View.read_writes_eq_canon _ _ _ (cover0_B_2 c i a2 h2 a3 h3 a4 h4 a5 h5 hc x0 x1 xo2 xo3)]
  unfold kernelRun0_B
  dsimp only
  rw [View.canon_unit_zero hz3]
  simp only [View.readAt_eq_ld, h2.read_unread, h4.read_unread, View.ld_unit_zero (S := S1024x512) hz2, View.ld_unit_zero (S := S1x8x128) hz3]
  rfl

theorem out_B_3 (c : Dev nD) (i : grid0.Coords) (a2 : Memref sig .tc .vmem S1024x512 .f32) (h2 : a2.IsWhole) (a3 : Memref sig .tc .vmem S4x1024x512 .f32) (h3 : a3.IsWhole) (a4 : Memref sig .tc .vmem S1x8x128 .f32) (h4 : a4.IsWhole) (a5 : Memref sig .tc .vmem S1x8x128 .f32) (h5 : a5.IsWhole) (hc : ¬cond0_0 i)
    (x0 : Vec F S1024x512 .f32) (x1 : Vec F S4x1024x512 .f32) (xo2 xo3 : Vec F S1x8x128 .f32) :
    out0_B_3 c i a2 h2 a3 h3 a4 h4 a5 h5 hc x0 x1 xo2 xo3 = accS x0 x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h5.read_unread, View.ld_unit_zero (S := S1024x512) hz2, View.ld_unit_zero (S := S1x8x128) hz3]
  rfl

theorem out_A_2 (c : Dev nD) (i : grid0.Coords) (a2 : Memref sig .tc .vmem S1024x512 .f32) (h2 : a2.IsWhole) (a3 : Memref sig .tc .vmem S4x1024x512 .f32) (h3 : a3.IsWhole) (a4 : Memref sig .tc .vmem S1x8x128 .f32) (h4 : a4.IsWhole) (a5 : Memref sig .tc .vmem S1x8x128 .f32) (h5 : a5.IsWhole) (hc : cond0_0 i)
    (x0 : Vec F S1024x512 .f32) (x1 : Vec F S4x1024x512 .f32) :
    out0_A_2 c i a2 h2 a3 h3 a4 h4 a5 h5 hc x0 x1 = accC x0 zeroBlk := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x8x128) hz3, View.readCov_unit_zero (S := S1x8x128) _ hz3]
  simp only [View.readAt_eq_ld, h2.read_unread, View.ld_unit_zero (S := S1024x512) hz2, View.ld_unit_zero (S := S1x8x128) hz3]
  rfl

theorem out_A_3 (c : Dev nD) (i : grid0.Coords) (a2 : Memref sig .tc .vmem S1024x512 .f32) (h2 : a2.IsWhole) (a3 : Memref sig .tc .vmem S4x1024x512 .f32) (h3 : a3.IsWhole) (a4 : Memref sig .tc .vmem S1x8x128 .f32) (h4 : a4.IsWhole) (a5 : Memref sig .tc .vmem S1x8x128 .f32) (h5 : a5.IsWhole) (hc : cond0_0 i)
    (x0 : Vec F S1024x512 .f32) (x1 : Vec F S4x1024x512 .f32) :
    out0_A_3 c i a2 h2 a3 h3 a4 h4 a5 h5 hc x0 x1 = accS x0 x1 zeroBlk := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, View.ld_unit_zero (S := S1024x512) hz2, View.ld_unit_zero (S := S1x8x128) hz3]
  rfl

end Cert.KernelIdeal.Pieces

end
-- ==== Proof.KPayload.lean ====
/-
  One grid step's arithmetic, entry by entry, over the extended reals.

  With x0 a block of 1024 rows of zc and x1 the matching block of zs (4 slabs of 1024 rows), every entry of the
  first accumulator after the step is its previous entry plus (0 - S), S = sum_r sum_d x0[r,d]^2; every entry of the
  second is its previous entry plus (0 - C), C = (((0 + C_0) + C_1) + C_2) + C_3 with
  C_v = sum_r <x0[r], x1[v,r]> / (|x0[r]|_e * |x1[v,r]|_e) and |x|_e = max (sqrt (sum_d x_d^2)) e.
  The lemmas read the step's vector operations at an index: a sum along the lanes is a sum over d, a sum along the
  rows a sum over r, and the casts and broadcasts between the shapes [1024], [1024,1], [1], [1,1], [1,1,1], [1,8,128]
  move no value.
-/
import proofs.«121926_j36155034697795_2_alg».proof.Proof.KPieces
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.Payload

open Cert.KernelIdeal Cert.KernelIdeal.Gen Cert.KernelIdeal.Pieces

/-- A sum along the 512 lanes with the row axis kept, read at row r. -/
theorem laneSum_apply (v : FVec Ideal S1024x512 .f32) (h : S1024x512.Reduces [1] S1024) (hφ : FKind.Formats .f32)
    (hacc : (0x00000000#32 : BitVec 32) = FKind.add.neutral .f32 hφ) (hc : S1024.ShapeCasts S1024x1) (r : Fin 1024) (z : Fin 1) :
    shapeCast S1024x1 (multiReduction .add [1] S1024 v 0x00000000#32 h hφ hacc) hc (ix2 r z) = ∑ d : Fin 512, v (ix2 r d) := by
  have hz := z.isLt
  rw [shapeCast_apply _ hc (ix2 r z) (ix1 r) (by
    rw [Shape.rowMajor_val_one, Shape.rowMajor_val_two]; show r.val = r.val * 1 + z.val; omega)]
  refine (Ideal.multiReduction_add_single v _ h hφ hacc (ix1 r)).trans ?_
  exact Finset.sum_congr rfl fun d _ => congrArg v (funext fun a => Fin.ext (by match a with | ⟨0, _⟩ => rfl | ⟨1, _⟩ => rfl))

/-- The total of a column of 1024 entries, as the one entry of a 1 x 1 vector. -/
theorem colSum_apply (w : FVec Ideal S1024x1 .f32) (h : S1024x1.Reduces [0] S1) (hφ : FKind.Formats .f32)
    (hacc : (0x00000000#32 : BitVec 32) = FKind.add.neutral .f32 hφ) (hc : S1.ShapeCasts S1x1) (a b : Fin 1) :
    shapeCast S1x1 (multiReduction .add [0] S1 w 0x00000000#32 h hφ hacc) hc (ix2 a b) = ∑ r : Fin 1024, w (ix2 r 0) := by
  have ha := a.isLt
  have hb := b.isLt
  rw [shapeCast_apply _ hc (ix2 a b) (ix1 0) (by
    rw [Shape.rowMajor_val_one, Shape.rowMajor_val_two]; show 0 = a.val * 1 + b.val; omega)]
  refine (Ideal.multiReduction_add_single w _ h hφ hacc (ix1 0)).trans ?_
  exact Finset.sum_congr rfl fun d _ => congrArg w (funext fun a => Fin.ext (by match a with | ⟨0, _⟩ => rfl | ⟨1, _⟩ => rfl))

/-- A 1 x 1 vector spread over the 1 x 8 x 128 block reads its one entry everywhere. -/
theorem spread_apply (u : FVec Ideal S1x1 .f32) (hc : S1x1.ShapeCasts S1x1x1) (hb : S1x1x1.Broadcasts S1x8x128) (y : S1x8x128.Idx) :
    broadcastTo S1x8x128 (shapeCast S1x1x1 u hc) hb y = u (ix2 0 0) := by
  rw [broadcastTo_apply _ hb y (ix3 0 0 0) (fun a => by
    match a with
    | ⟨0, _⟩ => exact (if_pos rfl).symm
    | ⟨1, _⟩ => exact (if_pos rfl).symm
    | ⟨2, _⟩ => exact (if_pos rfl).symm)]
  exact shapeCast_apply u hc (ix3 0 0 0) (ix2 0 0) (by
    rw [Shape.rowMajor_val_two, Shape.rowMajor_val_three]; rfl)

/-- The clamp and the zero, as extended reals. -/
abbrev epsE : EReal := Ideal.ofBits .f32 0x2B8CBCCC#32
abbrev zeroE : EReal := Ideal.ofBits .f32 0x00000000#32

/-- Row r of a block: its sum of squares, its inner product with row r of another block, its clamped norm, and the
    cosine of the two rows — over the extended reals, as the step computes them. -/
def rowSq (x : FVec Ideal S1024x512 .f32) (r : Fin 1024) : EReal := ∑ d : Fin 512, x (ix2 r d) * x (ix2 r d)
def rowDot (x y : FVec Ideal S1024x512 .f32) (r : Fin 1024) : EReal := ∑ d : Fin 512, x (ix2 r d) * y (ix2 r d)
def nrmE (x : FVec Ideal S1024x512 .f32) (r : Fin 1024) : EReal := max (Ideal.sqrt (rowSq x r)) epsE
def cosE (x y : FVec Ideal S1024x512 .f32) (r : Fin 1024) : EReal := Ideal.div (rowDot x y r) (nrmE x r * nrmE y r)

/-- A slab seen as a 1024 x 512 block. -/
abbrev flat (s : Vec Ideal S1x1024x512 .f32) : FVec Ideal S1024x512 .f32 :=
  shapeCast S1024x512 s shapeCasts_S1x1024x512_S1024x512

theorem pay4_apply (x0 : Vec Ideal S1024x512 .f32) (r : Fin 1024) (z : Fin 1) :
    k0_pay4 (F := Ideal) x0 (ix2 r z) = rowSq x0 r := by
  unfold k0_pay4
  exact laneSum_apply (mulf x0 x0) _ _ _ _ r z

theorem pay6_apply (x0 : Vec Ideal S1024x512 .f32) (r : Fin 1024) (z : Fin 1) :
    k0_pay6 (F := Ideal) x0 (ix2 r z) = nrmE x0 r := by
  unfold k0_pay6
  show max (Ideal.sqrt (k0_pay4 (F := Ideal) x0 (ix2 r z))) epsE = _
  rw [pay4_apply]; rfl

/-- The cosine stage: the inner products of the rows of x0 with the rows of a slab, divided by the product of the
    clamped norms. -/
theorem cosStage_apply (x0 : Vec Ideal S1024x512 .f32) (v19 : FVec Ideal S1024x1 .f32) (y : FVec Ideal S1024x512 .f32)
    (r : Fin 1024) (z : Fin 1) (hv : v19 (ix2 r z) = nrmE x0 r) :
    divf (shapeCast S1024x1 (multiReduction .add [1] S1024 (mulf x0 y) 0x00000000#32 reduces_S1024x512_S1024 (.inl rfl) rfl) shapeCasts_S1024_S1024x1)
      (mulf v19 (maximumf (sqrt (shapeCast S1024x1 (multiReduction .add [1] S1024 (mulf y y) 0x00000000#32 reduces_S1024x512_S1024 (.inl rfl) rfl) shapeCasts_S1024_S1024x1))
        (broadcast S1024x1 (Scalar.ofBits .f32 0x2B8CBCCC#32)))) (ix2 r z) = cosE x0 y r := by
  unfold cosE nrmE
  show Ideal.div _ (_ * max (Ideal.sqrt _) epsE) = _
  exact congrArg₂ Ideal.div (laneSum_apply (mulf x0 y) _ _ _ _ r z)
    (congrArg₂ (· * ·) hv (congrArg (fun t => max (Ideal.sqrt t) epsE) (laneSum_apply (mulf y y) _ _ _ _ r z)))

theorem pay8_apply (x0 : Vec Ideal S1024x512 .f32) (s : Vec Ideal S1x1024x512 .f32) (r : Fin 1024) (z : Fin 1) :
    k0_pay8 (F := Ideal) x0 s (ix2 r z) = cosE x0 (flat s) r := by
  unfold k0_pay8
  exact cosStage_apply x0 (k0_pay6 x0) (flat s) r z (pay6_apply x0 r z)

theorem pay9_apply (x0 : Vec Ideal S1024x512 .f32) (v19 : FVec Ideal S1024x1 .f32) (v20 : FVec Ideal S1x1 .f32) (v34 : FVec Ideal S1024x1 .f32)
    (s1 s2 : Vec Ideal S1x1024x512 .f32) (hv : ∀ r z, v19 (ix2 r z) = nrmE x0 r) (a b : Fin 1) :
    k0_pay9 (F := Ideal) x0 v19 v20 v34 s1 s2 (ix2 a b)
      = ((v20 (ix2 a b) + ∑ r : Fin 1024, v34 (ix2 r 0)) + ∑ r : Fin 1024, cosE x0 (flat s1) r) + ∑ r : Fin 1024, cosE x0 (flat s2) r := by
  unfold k0_pay9
  show ((v20 (ix2 a b) + _) + _) + _ = _
  refine congrArg₂ (· + ·) (congrArg₂ (· + ·) (congrArg₂ (· + ·) rfl (colSum_apply v34 _ _ _ _ a b)) ?_) ?_
  · exact (colSum_apply _ _ _ _ _ a b).trans (Finset.sum_congr rfl fun r _ => cosStage_apply x0 v19 (flat s1) r 0 (hv r 0))
  · exact (colSum_apply _ _ _ _ _ a b).trans (Finset.sum_congr rfl fun r _ => cosStage_apply x0 v19 (flat s2) r 0 (hv r 0))

/-- Slab v of a block, flattened, reads the block at (v, r, d). -/
theorem flat_slab0 (x1 : Vec Ideal S4x1024x512 .f32) (r : Fin 1024) (d : Fin 512) : flat (slab0 x1) (ix2 r d) = x1 (ix3 0 r d) := by
  refine (shapeCast_1ab_ab_apply _ _ r d).trans ?_
  exact congrArg x1 (funext fun a => Fin.ext (by match a with | ⟨0, _⟩ => rfl | ⟨1, _⟩ => (show 0 + 1 * r.val = r.val; omega) | ⟨2, _⟩ => (show 0 + 1 * d.val = d.val; omega)))
theorem flat_slab1 (x1 : Vec Ideal S4x1024x512 .f32) (r : Fin 1024) (d : Fin 512) : flat (slab1 x1) (ix2 r d) = x1 (ix3 1 r d) := by
  refine (shapeCast_1ab_ab_apply _ _ r d).trans ?_
  exact congrArg x1 (funext fun a => Fin.ext (by match a with | ⟨0, _⟩ => rfl | ⟨1, _⟩ => (show 0 + 1 * r.val = r.val; omega) | ⟨2, _⟩ => (show 0 + 1 * d.val = d.val; omega)))
theorem flat_slab2 (x1 : Vec Ideal S4x1024x512 .f32) (r : Fin 1024) (d : Fin 512) : flat (slab2 x1) (ix2 r d) = x1 (ix3 2 r d) := by
  refine (shapeCast_1ab_ab_apply _ _ r d).trans ?_
  exact congrArg x1 (funext fun a => Fin.ext (by match a with | ⟨0, _⟩ => rfl | ⟨1, _⟩ => (show 0 + 1 * r.val = r.val; omega) | ⟨2, _⟩ => (show 0 + 1 * d.val = d.val; omega)))
theorem flat_slab3 (x1 : Vec Ideal S4x1024x512 .f32) (r : Fin 1024) (d : Fin 512) : flat (slab3 x1) (ix2 r d) = x1 (ix3 3 r d) := by
  refine (shapeCast_1ab_ab_apply _ _ r d).trans ?_
  exact congrArg x1 (funext fun a => Fin.ext (by match a with | ⟨0, _⟩ => rfl | ⟨1, _⟩ => (show 0 + 1 * r.val = r.val; omega) | ⟨2, _⟩ => (show 0 + 1 * d.val = d.val; omega)))

/-- The block's total of squares, and the block's total of cosines over the four slabs (in the order the step adds them). -/
def blkSq (x0 : Vec Ideal S1024x512 .f32) : EReal := ∑ r : Fin 1024, rowSq x0 r
def blkCos (x0 : Vec Ideal S1024x512 .f32) (x1 : Vec Ideal S4x1024x512 .f32) : EReal :=
  (((zeroE + ∑ r : Fin 1024, cosE x0 (flat (slab0 x1)) r) + ∑ r : Fin 1024, cosE x0 (flat (slab1 x1)) r)
    + ∑ r : Fin 1024, cosE x0 (flat (slab2 x1)) r) + ∑ r : Fin 1024, cosE x0 (flat (slab3 x1)) r

/-- Every entry of the first accumulator after a step is its previous entry plus (0 - the block's total of squares). -/
theorem accC_apply (x0 : Vec Ideal S1024x512 .f32) (xo : Vec Ideal S1x8x128 .f32) (y : S1x8x128.Idx) :
    accC (F := Ideal) x0 xo y = xo y + (zeroE - blkSq x0) := by
  unfold accC k0_pay5
  show shapeCast S1x8x128 xo shapeCasts_S1x8x128_S1x8x128 y + (zeroE - _) = _
  rw [shapeCast_self]
  refine congrArg (fun t => xo y + (zeroE - t)) ?_
  refine (spread_apply _ _ _ y).trans ?_
  exact (colSum_apply (k0_pay4 x0) _ _ _ _ 0 0).trans (Finset.sum_congr rfl fun r _ => pay4_apply x0 r 0)

/-- Every entry of the second accumulator after a step is its previous entry plus (0 - the block's total of cosines). -/
theorem accS_apply (x0 : Vec Ideal S1024x512 .f32) (x1 : Vec Ideal S4x1024x512 .f32) (xo : Vec Ideal S1x8x128 .f32) (y : S1x8x128.Idx) :
    accS (F := Ideal) x0 x1 xo y = xo y + (zeroE - blkCos x0 x1) := by
  unfold accS k0_pay1 k0_pay10 k0_pay11
  show shapeCast S1x8x128 xo shapeCasts_S1x8x128_S1x8x128 y + (zeroE - _) = _
  rw [shapeCast_self]
  refine congrArg (fun t => xo y + (zeroE - t)) ?_
  refine (spread_apply _ _ _ y).trans ?_
  unfold blkCos
  show _ + _ = _
  refine congrArg₂ (· + ·) ?_ ?_
  · refine (pay9_apply x0 (k0_pay6 x0) k0_pay7 (k0_pay8 x0 (slab0 x1)) (slab1 x1) (slab2 x1) (fun r z => pay6_apply x0 r z) 0 0).trans ?_
    refine congrArg₂ (· + ·) (congrArg₂ (· + ·) (congrArg₂ (· + ·) rfl ?_) rfl) rfl
    exact Finset.sum_congr rfl fun r _ => pay8_apply x0 (slab0 x1) r 0
  · exact (colSum_apply _ _ _ _ _ 0 0).trans (Finset.sum_congr rfl fun r _ => cosStage_apply x0 (k0_pay6 x0) (flat (slab3 x1)) r 0 (pay6_apply x0 r 0))

end Cert.KernelIdeal.Payload

end
-- ==== Proof.KAcc.lean ====
/-
  The two accumulators over a run of eight grid steps.

  The sixteen grid steps are two runs of eight; the first step of a run clears the accumulators, every step adds its
  block's contribution.  Hence after step 8q + j the first accumulator holds, in every entry,
  0 + sum_{s <= j} (0 - S(8q + s)),  S(n) the total of squares of the n-th block of 1024 rows of zc, and the second
  the same with the block's total of cosines in place of S.
-/
import proofs.«121926_j36155034697795_2_alg».proof.Proof.KPayload

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.KernelIdeal.Pieces Cert.KernelIdeal.Payload

variable (m : (ℓ : Loc nD τ sig) → Buf (Elt Ideal) ℓ)

/-- The n-th block of zc, and of zs, as the step at point n reads them. -/
abbrev blkC (c : Dev nD) (n : ℕ) (h : n < cfg0.N) : Vec Ideal S1024x512 .f32 := iblk m c 0 ⟨n, h⟩
abbrev blkS (c : Dev nD) (n : ℕ) (h : n < cfg0.N) : Vec Ideal S4x1024x512 .f32 := iblk m c 1 ⟨n, h⟩

/-- What step n adds to every entry of the first, and of the second, accumulator. -/
def addC (c : Dev nD) (n : ℕ) (_ : S1x8x128.Idx) : EReal :=
  if h : n < cfg0.N then zeroE - blkSq (blkC m c n h) else 0
def addS (c : Dev nD) (n : ℕ) (_ : S1x8x128.Idx) : EReal :=
  if h : n < cfg0.N then zeroE - blkCos (blkC m c n h) (blkS m c n h) else 0

/-- A first step of a run leaves the step's arithmetic applied to the cleared accumulators. -/
theorem stepA (c : Dev nD) (t : Fin cfg0.N) (h0 : t.val % 8 = 0) :
    outsAt0 m c t.val t.isLt = (accC (F := Ideal) (iblk m c 0 t) zeroBlk, accS (F := Ideal) (iblk m c 0 t) (iblk m c 1 t) zeroBlk) := by
  rw [outsAt0_A m c t h0, out_A_2, out_A_3]

/-- A later step leaves it applied to what the step before left. -/
theorem stepB (c : Dev nD) (t : Fin cfg0.N) (h0 : ¬t.val % 8 = 0) :
    outsAt0 m c t.val t.isLt
      = (accC (F := Ideal) (iblk m c 0 t) (outsAt0 m c (t.val - 1) (Nat.lt_of_le_of_lt (Nat.sub_le _ _) t.isLt)).1,
         accS (F := Ideal) (iblk m c 0 t) (iblk m c 1 t) (outsAt0 m c (t.val - 1) (Nat.lt_of_le_of_lt (Nat.sub_le _ _) t.isLt)).2) := by
  rw [outsAt0_B m c t h0, out_B_2, out_B_3]

theorem outs_same (c : Dev nD) (u n : ℕ) (hu : u < cfg0.N) (hn : n < cfg0.N) (e : u = n) :
    outsAt0 m c u hu = outsAt0 m c n hn := by
  subst e; rfl

theorem stepB' (c : Dev nD) (n : ℕ) (h : n + 1 < cfg0.N) (hn : ¬(n + 1) % 8 = 0) :
    outsAt0 m c (n + 1) h
      = (accC (F := Ideal) (iblk m c 0 ⟨n + 1, h⟩) (outsAt0 m c n (Nat.lt_of_succ_lt h)).1,
         accS (F := Ideal) (iblk m c 0 ⟨n + 1, h⟩) (iblk m c 1 ⟨n + 1, h⟩) (outsAt0 m c n (Nat.lt_of_succ_lt h)).2) := by
  refine (stepB m c ⟨n + 1, h⟩ hn).trans ?_
  exact congrArg (fun z => (accC (F := Ideal) (iblk m c 0 ⟨n + 1, h⟩) z.1, accS (F := Ideal) (iblk m c 0 ⟨n + 1, h⟩) (iblk m c 1 ⟨n + 1, h⟩) z.2))
    (outs_same m c _ n _ _ (Nat.add_sub_cancel n 1))

/-- The first accumulator after step 8q + j. -/
theorem outC_eq (c : Dev nD) (q j : ℕ) (hj : j < 8) (h : 8 * q + j < cfg0.N) (y : S1x8x128.Idx) :
    (outsAt0 m c (8 * q + j) h).1 y = zeroE + ∑ s ∈ Finset.range (j + 1), addC m c (8 * q + s) y := by
  have e := Pipeline.eq_accAt (N := cfg0.N) (fun n h => (outsAt0 m c n h).1) 8
    (fun n h => accC (F := Ideal) (blkC m c n h) zeroBlk)
    (fun n h acc => accC (F := Ideal) (blkC m c n h) acc)
    (fun n h hn => congrArg Prod.fst (stepA m c ⟨n, h⟩ hn))
    (fun n h hn => congrArg Prod.fst (stepB' m c n h hn))
    q j hj h
  refine (congrFun e y).trans ?_
  refine Pipeline.accAt_add_apply _ _ (fun _ => zeroE) (addC m c) (8 * q) 7 ?_ ?_ j (by omega) h y
  · intro hb i
    refine (accC_apply (blkC m c (8 * q) hb) zeroBlk i).trans ?_
    unfold addC; rw [dif_pos hb]; rfl
  · intro n hn acc i _ _
    refine (accC_apply (blkC m c n hn) acc i).trans ?_
    unfold addC; rw [dif_pos hn]

/-- The second accumulator after step 8q + j. -/
theorem outS_eq (c : Dev nD) (q j : ℕ) (hj : j < 8) (h : 8 * q + j < cfg0.N) (y : S1x8x128.Idx) :
    (outsAt0 m c (8 * q + j) h).2 y = zeroE + ∑ s ∈ Finset.range (j + 1), addS m c (8 * q + s) y := by
  have e := Pipeline.eq_accAt (N := cfg0.N) (fun n h => (outsAt0 m c n h).2) 8
    (fun n h => accS (F := Ideal) (blkC m c n h) (blkS m c n h) zeroBlk)
    (fun n h acc => accS (F := Ideal) (blkC m c n h) (blkS m c n h) acc)
    (fun n h hn => congrArg Prod.snd (stepA m c ⟨n, h⟩ hn))
    (fun n h hn => congrArg Prod.snd (stepB' m c n h hn))
    q j hj h
  refine (congrFun e y).trans ?_
  refine Pipeline.accAt_add_apply _ _ (fun _ => zeroE) (addS m c) (8 * q) 7 ?_ ?_ j (by omega) h y
  · intro hb i
    refine (accS_apply (blkC m c (8 * q) hb) (blkS m c (8 * q) hb) zeroBlk i).trans ?_
    unfold addS; rw [dif_pos hb]; rfl
  · intro n hn acc i _ _
    refine (accS_apply (blkC m c n hn) (blkS m c n hn) acc i).trans ?_
    unfold addS; rw [dif_pos hn]

end Cert.KernelIdeal.Acc

end
-- ==== Proof.KFinal.lean ====
/-
  The two output arrays after the run.

  The first output is a 2 x 8 x 128 array; block q (one 1 x 8 x 128 block per run of eight steps) is written back once,
  after step 8q + 7, when the accumulator holds the whole run's total.  Hence every entry (q, s, l) of the final array
  is 0 + sum_{s' < 8} (0 - S(8q + s')), and likewise the second output with the blocks' totals of cosines.
-/
import proofs.«121926_j36155034697795_2_alg».proof.Proof.KAcc

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Pieces Cert.KernelIdeal.Payload Cert.KernelIdeal.Acc

variable (m : (ℓ : Loc nD τ sig) → Buf (Elt Ideal) ℓ)

/-- Any index of an accumulator block (its entries are all equal). -/
abbrev y0 : S1x8x128.Idx := ix3 0 0 0

/-- The two output arrays after the run: entry (q, s, l) is the total of the q-th run of eight steps. -/
def gC (c : Dev nD) : S2x8x128.Idx → EReal := fun i => zeroE + ∑ s ∈ Finset.range 8, addC m c (8 * (i 0).val + s) y0
def gS (c : Dev nD) : S2x8x128.Idx → EReal := fun i => zeroE + ∑ s ∈ Finset.range 8, addS m c (8 * (i 0).val + s) y0

/-- The index maps over the grid: step t reads block t of zc and of zs and accumulates into block t / 8 of the outputs. -/
theorem idx_facts : ∀ t : Fin cfg0.N,
    win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = 0
    ∧ win0_0.index t (0 : Fin 2) = t.val ∧ win0_0.index t (1 : Fin 2) = 0
    ∧ win0_1.index t (0 : Fin 3) = 0 ∧ win0_1.index t (1 : Fin 3) = t.val ∧ win0_1.index t (2 : Fin 3) = 0 :=
  (by decide +kernel : ∀ t : Fin grid0.N, _)

/-- An index of an output array is in step t's block iff each coordinate is in the block's range on its axis. -/
theorem mem_blk2 (t : Fin cfg0.N) (i : S2x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v0_0).slice (win0_2.rect t)).set ↔ _
  rw [View.set_slice_whole, Rect.mem_set_unit]
  exact Iff.rfl
theorem mem_blk3 (t : Fin cfg0.N) (i : S2x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v0_1).slice (win0_3.rect t)).set ↔ _
  rw [View.set_slice_whole, Rect.mem_set_unit]
  exact Iff.rfl

/-- What a write-back of the first output stores is the block of gC. -/
theorem flushedC_eq (c : Dev nD) (t : Fin cfg0.N) (hf : (cfg0.win 2).flush t = true) :
    (dats m 0 c).flushed 2 t = ((cfg0.win 2).blk t).view.read (Elt Ideal) (gC m c) := by
  have hN : cfg0.N = 16 := N_0
  have h7 : t.val % 8 = 7 := (flush0_2 t).mp hf
  have htlt := t.isLt
  have e0 : win0_2.index t (0 : Fin 3) = t.val / 8 := (idx_facts t).1
  show (cfg0.win 2).cut (grid0.coords t) ((dats m 0 c).after 2 t) = _
  rw [after0_2]
  funext j
  have hu : 8 * (t.val / 8) + 7 < cfg0.N := by omega
  have ht : 8 * (t.val / 8) + 7 = t.val := by omega
  have same : ∀ (u : ℕ) (hu' : u < cfg0.N), u = t.val → outsAt0 m c u hu' = outsAt0 m c t.val t.isLt :=
    fun u hu' e => by subst e; rfl
  have hj : (j 0).val < 1 := (j 0).isLt
  have hemb : ((((cfg0.win 2).blk t).view.emb j) 0).val = t.val / 8 := by
    show win0_2.index t (0 : Fin 3) * 1 + 1 * (j 0).val = t.val / 8
    omega
  show (outsAt0 m c t.val t.isLt).1 j = gC m c (((cfg0.win 2).blk t).view.emb j)
  refine ((congrFun (congrArg Prod.fst (same _ hu ht)) j).symm.trans (outC_eq m c (t.val / 8) 7 (by decide) hu j)).trans ?_
  unfold gC
  rw [hemb]
  rfl

/-- What a write-back of the second output stores is the block of gS. -/
theorem flushedS_eq (c : Dev nD) (t : Fin cfg0.N) (hf : (cfg0.win 3).flush t = true) :
    (dats m 0 c).flushed 3 t = ((cfg0.win 3).blk t).view.read (Elt Ideal) (gS m c) := by
  have hN : cfg0.N = 16 := N_0
  have h7 : t.val % 8 = 7 := (flush0_3 t).mp hf
  have htlt := t.isLt
  have e0 : win0_3.index t (0 : Fin 3) = t.val / 8 := (idx_facts t).2.2.2.1
  show (cfg0.win 3).cut (grid0.coords t) ((dats m 0 c).after 3 t) = _
  rw [after0_3]
  funext j
  have hu : 8 * (t.val / 8) + 7 < cfg0.N := by omega
  have ht : 8 * (t.val / 8) + 7 = t.val := by omega
  have same : ∀ (u : ℕ) (hu' : u < cfg0.N), u = t.val → outsAt0 m c u hu' = outsAt0 m c t.val t.isLt :=
    fun u hu' e => by subst e; rfl
  have hj : (j 0).val < 1 := (j 0).isLt
  have hemb : ((((cfg0.win 3).blk t).view.emb j) 0).val = t.val / 8 := by
    show win0_3.index t (0 : Fin 3) * 1 + 1 * (j 0).val = t.val / 8
    omega
  show (outsAt0 m c t.val t.isLt).2 j = gS m c (((cfg0.win 3).blk t).view.emb j)
  refine ((congrFun (congrArg Prod.snd (same _ hu ht)) j).symm.trans (outS_eq m c (t.val / 8) 7 (by decide) hu j)).trans ?_
  unfold gS
  rw [hemb]
  rfl

/-- Every entry of the first output is in the block written back after step 8q + 7, q its leading coordinate. -/
theorem coverC (c : Dev nD) (i : S2x8x128.Idx) :
    ∃ t : Fin cfg0.N, (cfg0.win 2).flush t = true ∧ i ∈ ((cfg0.win 2).blk t).view.set := by
  have hN : cfg0.N = 16 := N_0
  have h0 : (i 0).val < 2 := (i 0).isLt
  have h1 : (i 1).val < 8 := (i 1).isLt
  have h2 : (i 2).val < 128 := (i 2).isLt
  obtain ⟨t, htv⟩ : ∃ t : Fin cfg0.N, t.val = 8 * (i 0).val + 7 := ⟨⟨8 * (i 0).val + 7, by omega⟩, rfl⟩
  refine ⟨t, (flush0_2 t).mpr (by omega), ?_⟩
  rw [mem_blk2]
  have e0 := (idx_facts t).1
  have e1 := (idx_facts t).2.1
  have e2 := (idx_facts t).2.2.1
  intro a
  match a with
  | ⟨0, _⟩ => (show win0_2.index t (0 : Fin 3) * 1 ≤ (i 0).val ∧ (i 0).val < win0_2.index t (0 : Fin 3) * 1 + 1; omega)
  | ⟨1, _⟩ => (show win0_2.index t (1 : Fin 3) * 8 ≤ (i 1).val ∧ (i 1).val < win0_2.index t (1 : Fin 3) * 8 + 8; omega)
  | ⟨2, _⟩ => (show win0_2.index t (2 : Fin 3) * 128 ≤ (i 2).val ∧ (i 2).val < win0_2.index t (2 : Fin 3) * 128 + 128; omega)

theorem coverS (c : Dev nD) (i : S2x8x128.Idx) :
    ∃ t : Fin cfg0.N, (cfg0.win 3).flush t = true ∧ i ∈ ((cfg0.win 3).blk t).view.set := by
  have hN : cfg0.N = 16 := N_0
  have h0 : (i 0).val < 2 := (i 0).isLt
  have h1 : (i 1).val < 8 := (i 1).isLt
  have h2 : (i 2).val < 128 := (i 2).isLt
  obtain ⟨t, htv⟩ : ∃ t : Fin cfg0.N, t.val = 8 * (i 0).val + 7 := ⟨⟨8 * (i 0).val + 7, by omega⟩, rfl⟩
  refine ⟨t, (flush0_3 t).mpr (by omega), ?_⟩
  rw [mem_blk3]
  have e0 := (idx_facts t).2.2.2.1
  have e1 := (idx_facts t).2.2.2.2.1
  have e2 := (idx_facts t).2.2.2.2.2.1
  intro a
  match a with
  | ⟨0, _⟩ => (show win0_3.index t (0 : Fin 3) * 1 ≤ (i 0).val ∧ (i 0).val < win0_3.index t (0 : Fin 3) * 1 + 1; omega)
  | ⟨1, _⟩ => (show win0_3.index t (1 : Fin 3) * 8 ≤ (i 1).val ∧ (i 1).val < win0_3.index t (1 : Fin 3) * 8 + 8; omega)
  | ⟨2, _⟩ => (show win0_3.index t (2 : Fin 3) * 128 ≤ (i 2).val ∧ (i 2).val < win0_3.index t (2 : Fin 3) * 128 + 128; omega)

/-- The first output array after the run. -/
theorem finalC (c : Dev nD) : (dats m 0 c).arrAt 2 cfg0.N = gC m c :=
  (dats m 0 c).arrAt_eq_of_cover 2 (gC m c) (flushedC_eq m c) (coverC c)

/-- The second output array after the run. -/
theorem finalS (c : Dev nD) : (dats m 0 c).arrAt 3 cfg0.N = gS m c :=
  (dats m 0 c).arrAt_eq_of_cover 3 (gS m c) (flushedS_eq m c) (coverS c)

end Cert.KernelIdeal.Final

end
-- ==== Proof.KRun.lean ====
/-
  The idealized kernel's run, read: its result.

  After the grid, the host takes entry (q, 0, 0) of each output array for the two values of q, adds the two (from 0),
  and pairs the two sums.  The run of the whole program therefore ends with the result at
  pair (coreSum gC) (coreSum gS), gC and gS the two output arrays after the grid, and the arguments unchanged.
-/
import proofs.«121926_j36155034697795_2_alg».proof.Proof.KFinal
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.KernelIdeal.Pieces Cert.KernelIdeal.Payload Cert.KernelIdeal.Acc Cert.KernelIdeal.Final
open Idealize.ShloMosaic.StableHlo

variable (m : (ℓ : Loc nD τ sig) → Buf (Elt Ideal) ℓ) (ρ : Dev nD → PrngReg)

/-- The sum over the two runs of entry (q, 0, 0) of an output array, from 0. -/
def coreSum (a : FVec Ideal S2x8x128 .f32) : FVec Ideal S_ .f32 :=
  Host.reduceAdd (F := Ideal) (shapeCast S2 (extractStridedSlice S2x1x1 ![0, 0, 0] a slices_S2x8x128_S2x1x1_0_0_0) shapeCasts_S2x1x1_S2)
    (constant (F := Ideal) S_ .f32 0x00000000#32) reducesTo_S2_S_d0 h_S_

/-- Two scalars as a vector of length two. -/
def pair (u v : FVec Ideal S_ .f32) : FVec Ideal S2 .f32 :=
  concatenate S2 0 [⟨S1, broadcastInDim S1 ![] bcast_S_S1 u⟩, ⟨S1, broadcastInDim S1 ![] bcast_S_S1 v⟩] concatenates_S1_S1_S2_d0

/-- What the host lines after the grid leave in the result. -/
theorem tail_eq (c : Dev nD) :
    Pipeline.afterTail₀ cfgs (dats m) 0 (V0 m) [hostOps1] c main_v9 = pair (coreSum (gC m c)) (coreSum (gS m c)) := by
  have e2 : Pipeline.withArrays (cfgs 0).spec c (V0 m c) (fun w => (dats m 0 c).arrAt w (cfgs 0).N) (Proc.devRef .tc main_v0_0) = gC m c :=
    (Pipeline.withArrays_arr spec0 launch0.win.arr_inj c (V0 m c) _ 2).trans (finalC m c)
  have e3 : Pipeline.withArrays (cfgs 0).spec c (V0 m c) (fun w => (dats m 0 c).arrAt w (cfgs 0).N) (Proc.devRef .tc main_v0_1) = gS m c :=
    (Pipeline.withArrays_arr spec0 launch0.win.arr_inj c (V0 m c) _ 3).trans (finalS m c)
  unfold Pipeline.afterTail₀
  show StableHlo.after hostOps1 _ (Proc.devRef .tc main_v9) = _
  after_results
  rw [e2, e3]
  rfl

/-- The run: every execution ends with the result at the pair of the two core sums and the arguments unchanged. -/
theorem run : θ_run defs (onTc (τ := τ) (main (F := Ideal))) ⟨m, fun _ => 0, ρ⟩ fun r => ∀ c : Dev nD,
      r.2.mem ((c.tc : Thread nD τ).loc main_v9) = pair (coreSum (gC m c)) (coreSum (gS m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v9 (Pipeline.mem_restRefs_of main_v9 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Run

end
-- ==== Proof.Spec.lean ====
/-
  The two losses as real numbers.

  For a row x in R^512 write |x|_e = max (sqrt (sum_d x_d^2)) e, the Euclidean norm clamped below by the
  positive constant e (the real that the single-precision word 0x2B8CBCCC denotes).  With zc in R^(16384 x 512)
  and zs in R^(4 x 16384 x 512),

    common zc     = - sum_r sum_d zc[r,d]^2
    special zc zs = - sum_v sum_r  <zc[r], zs[v,r]> / (|zc[r]|_e * |zs[v,r]|_e).

  Both programs are shown to compute the pair (common, special), as extended reals, of inputs that are arrays of
  real numbers.  This module holds the definitions, the constants, and the embedding of real arrays into arrays of
  extended reals; it mentions neither program.
-/
import Mathlib
import Idealize.ShloMosaic.PureOps.Ideal

noncomputable section

namespace Cert.CosSpec

open Idealize.ShloMosaic

/-- The clamp: the real number the word 0x2B8CBCCC denotes, (2^23 + 834764) * 2^(87 - 127 - 23). -/
def eps : ℝ := ((2 ^ 23 + 834764 : ℕ) : ℝ) * (2 : ℝ) ^ ((87 : ℤ) - 127 - 23)

theorem eps_pos : 0 < eps := by unfold eps; positivity

theorem ofBits_eps : Ideal.ofBits .f32 0x2B8CBCCC#32 = ((eps : ℝ) : EReal) := by
  simp [Ideal.ofBits, Ideal.ieee, eps, -EReal.coe_mul]

theorem ofBits_zero : Ideal.ofBits .f32 0x00000000#32 = 0 := by
  simp [Ideal.ofBits, Ideal.ieee]

/-- Sum of squares of a row. -/
def sq (x : Fin 512 → ℝ) : ℝ := ∑ d, x d * x d
/-- The clamped Euclidean norm of a row. -/
def nrm (x : Fin 512 → ℝ) : ℝ := max (Real.sqrt (sq x)) eps
/-- Inner product of two rows. -/
def dot (x y : Fin 512 → ℝ) : ℝ := ∑ d, x d * y d
/-- The cosine of two rows, with clamped norms. -/
def cosr (x y : Fin 512 → ℝ) : ℝ := dot x y / (nrm x * nrm y)

theorem sq_nonneg (x : Fin 512 → ℝ) : 0 ≤ sq x := Finset.sum_nonneg fun d _ => mul_self_nonneg (x d)
theorem nrm_pos (x : Fin 512 → ℝ) : 0 < nrm x := lt_max_of_lt_right eps_pos
theorem nrm_ne (x : Fin 512 → ℝ) : nrm x ≠ 0 := (nrm_pos x).ne'

def common (zc : Fin 16384 → Fin 512 → ℝ) : ℝ := -(∑ r, sq (zc r))
def special (zc : Fin 16384 → Fin 512 → ℝ) (zs : Fin 4 → Fin 16384 → Fin 512 → ℝ) : ℝ :=
  -(∑ v, ∑ r, cosr (zc r) (zs v r))

/-- The shapes of the two argument arrays. -/
abbrev SA : Shape := ⟨2, ![16384, 512]⟩
abbrev SB : Shape := ⟨3, ![4, 16384, 512]⟩

/-- A real matrix as an array of extended reals. -/
def liftA (zc : Fin 16384 → Fin 512 → ℝ) : SA.Idx → EReal :=
  fun i => ((zc ⟨(i 0).val, (i 0).isLt⟩ ⟨(i 1).val, (i 1).isLt⟩ : ℝ) : EReal)
/-- A real rank-3 array as an array of extended reals. -/
def liftB (zs : Fin 4 → Fin 16384 → Fin 512 → ℝ) : SB.Idx → EReal :=
  fun i => ((zs ⟨(i 0).val, (i 0).isLt⟩ ⟨(i 1).val, (i 1).isLt⟩ ⟨(i 2).val, (i 2).isLt⟩ : ℝ) : EReal)

/-- A finite sum of real numbers, taken in the extended reals, is the real sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The square root of a nonnegative real, taken in the extended reals. -/
theorem sqrt_coe_nonneg {r : ℝ} (h : 0 ≤ r) : Ideal.sqrt (r : EReal) = ((Real.sqrt r : ℝ) : EReal) := by
  rw [Ideal.sqrt_coe, if_neg (not_lt.mpr h)]

/-- The quotient of two reals with a nonzero divisor, taken in the extended reals. -/
theorem div_coe_coe (x : ℝ) {y : ℝ} (h : y ≠ 0) : Ideal.div (x : EReal) (y : EReal) = ((x / y : ℝ) : EReal) := by
  rw [Ideal.div_coe h, ← EReal.coe_mul]; congr 1; ring

theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

end Cert.CosSpec

end
-- ==== Proof.KReal.lean ====
/-
  A block of real numbers: its totals over the extended reals are the embedded real totals.

  Let the entries of a block x0 of 1024 rows be the embeddings of real numbers X[r,d], and those of the matching
  block x1 of four slabs of 1024 rows the embeddings of Y[v,r,d].  Then every quantity the step forms from them is the
  embedding of the corresponding real quantity: a row's sum of squares and the inner product of two rows are finite
  sums of products of reals; the clamped norm is the maximum of the root of a nonnegative real and the positive
  constant e; the cosine is a quotient of reals by the product of two clamped norms, which is not zero.  The block's
  total of squares is then the embedded sum over the rows, and the block's total of cosines, added slab by slab
  starting from zero, is the embedded sum over the four slabs and the rows; zero minus either total is the embedding
  of the negated real total.
-/
import proofs.«121926_j36155034697795_2_alg».proof.Proof.KPayload
import proofs.«121926_j36155034697795_2_alg».proof.Proof.Spec

noncomputable section

namespace Cert.KernelIdeal.RealStep

open Cert.KernelIdeal Cert.KernelIdeal.Pieces Cert.KernelIdeal.Payload Cert.CosSpec
open Idealize.ShloMosaic Idealize.ShloMosaic.ValueIdx

/-- The zero word denotes 0, the clamp word the real e. -/
theorem zeroE_eq : zeroE = ((0 : ℝ) : EReal) := ofBits_zero
theorem epsE_eq : epsE = ((eps : ℝ) : EReal) := ofBits_eps

/-! ## One row -/

/-- The sum of squares of a row of reals. -/
theorem rowSq_real (x : FVec Ideal S1024x512 .f32) (X : Fin 1024 → Fin 512 → ℝ)
    (hx : ∀ r d, x (ix2 r d) = ((X r d : ℝ) : EReal)) (r : Fin 1024) :
    rowSq x r = ((CosSpec.sq (X r) : ℝ) : EReal) := by
  unfold rowSq
  simp only [hx, ← EReal.coe_mul, coe_sum]
  rfl

/-- The inner product of two rows of reals. -/
theorem rowDot_real (x y : FVec Ideal S1024x512 .f32) (X Y : Fin 1024 → Fin 512 → ℝ)
    (hx : ∀ r d, x (ix2 r d) = ((X r d : ℝ) : EReal)) (hy : ∀ r d, y (ix2 r d) = ((Y r d : ℝ) : EReal))
    (r : Fin 1024) :
    rowDot x y r = ((dot (X r) (Y r) : ℝ) : EReal) := by
  unfold rowDot
  simp only [hx, hy, ← EReal.coe_mul, coe_sum]
  rfl

/-- The clamped norm of a row of reals. -/
theorem nrmE_real (x : FVec Ideal S1024x512 .f32) (X : Fin 1024 → Fin 512 → ℝ)
    (hx : ∀ r d, x (ix2 r d) = ((X r d : ℝ) : EReal)) (r : Fin 1024) :
    nrmE x r = ((nrm (X r) : ℝ) : EReal) := by
  unfold nrmE
  rw [rowSq_real x X hx r, sqrt_coe_nonneg (CosSpec.sq_nonneg _), epsE_eq, max_coe]
  rfl

/-- The cosine, with clamped norms, of two rows of reals. -/
theorem cosE_real (x y : FVec Ideal S1024x512 .f32) (X Y : Fin 1024 → Fin 512 → ℝ)
    (hx : ∀ r d, x (ix2 r d) = ((X r d : ℝ) : EReal)) (hy : ∀ r d, y (ix2 r d) = ((Y r d : ℝ) : EReal))
    (r : Fin 1024) :
    cosE x y r = ((cosr (X r) (Y r) : ℝ) : EReal) := by
  unfold cosE
  rw [rowDot_real x y X Y hx hy r, nrmE_real x X hx r, nrmE_real y Y hy r, ← EReal.coe_mul,
    div_coe_coe _ (mul_ne_zero (nrm_ne _) (nrm_ne _))]
  rfl

/-! ## The block's totals -/

/-- Zero minus the block's total of squares. -/
theorem blkSq_real (x0 : Vec Ideal S1024x512 .f32) (X : Fin 1024 → Fin 512 → ℝ)
    (hx : ∀ r d, x0 (ix2 r d) = ((X r d : ℝ) : EReal)) :
    zeroE - blkSq x0 = ((-(∑ r : Fin 1024, CosSpec.sq (X r)) : ℝ) : EReal) := by
  unfold blkSq
  simp only [rowSq_real x0 X hx, coe_sum]
  rw [zeroE_eq, ← EReal.coe_sub, zero_sub]

/-- Zero minus the block's total of cosines over the four slabs. -/
theorem blkCos_real (x0 : Vec Ideal S1024x512 .f32) (x1 : Vec Ideal S4x1024x512 .f32)
    (X : Fin 1024 → Fin 512 → ℝ) (Y : Fin 4 → Fin 1024 → Fin 512 → ℝ)
    (hx : ∀ r d, x0 (ix2 r d) = ((X r d : ℝ) : EReal)) (hy : ∀ v r d, x1 (ix3 v r d) = ((Y v r d : ℝ) : EReal)) :
    zeroE - blkCos x0 x1 = ((-(∑ v : Fin 4, ∑ r : Fin 1024, cosr (X r) (Y v r)) : ℝ) : EReal) := by
  have h0 : ∀ r, cosE x0 (flat (slab0 x1)) r = ((cosr (X r) (Y 0 r) : ℝ) : EReal) :=
    cosE_real x0 (flat (slab0 x1)) X (Y 0) hx fun r d => (flat_slab0 x1 r d).trans (hy 0 r d)
  have h1 : ∀ r, cosE x0 (flat (slab1 x1)) r = ((cosr (X r) (Y 1 r) : ℝ) : EReal) :=
    cosE_real x0 (flat (slab1 x1)) X (Y 1) hx fun r d => (flat_slab1 x1 r d).trans (hy 1 r d)
  have h2 : ∀ r, cosE x0 (flat (slab2 x1)) r = ((cosr (X r) (Y 2 r) : ℝ) : EReal) :=
    cosE_real x0 (flat (slab2 x1)) X (Y 2) hx fun r d => (flat_slab2 x1 r d).trans (hy 2 r d)
  have h3 : ∀ r, cosE x0 (flat (slab3 x1)) r = ((cosr (X r) (Y 3 r) : ℝ) : EReal) :=
    cosE_real x0 (flat (slab3 x1)) X (Y 3) hx fun r d => (flat_slab3 x1 r d).trans (hy 3 r d)
  unfold blkCos
  simp only [h0, h1, h2, h3, coe_sum]
  rw [zeroE_eq, ← EReal.coe_add, ← EReal.coe_add, ← EReal.coe_add, ← EReal.coe_add, ← EReal.coe_sub,
    Fin.sum_univ_four]
  congr 1
  ring

end Cert.KernelIdeal.RealStep

end
-- ==== Proof.Regroup.lean ====
/-
  Regrouping a sum over 16384 consecutive rows.

  The rows 0, ..., 16383 fall into 16 consecutive blocks of 1024 rows, block n holding the rows 1024 * n + r with
  r < 1024; so a sum over all rows is the sum over the blocks of the sums over each block.  The 16 blocks in turn
  fall into two runs of 8 consecutive blocks, the blocks 0 + s and the blocks 8 + s with s < 8.  Both are instances
  of splitting a sum over the naturals below n + m into the part below n and the part from n on.
-/
import Mathlib

namespace Cert.CosRegroup

/-- A sum over the naturals below m * b, taken in m consecutive blocks of length b. -/
theorem sum_range_mul (g : ℕ → ℝ) (b : ℕ) (m : ℕ) :
    ∑ k ∈ Finset.range (m * b), g k = ∑ n ∈ Finset.range m, ∑ r ∈ Finset.range b, g (b * n + r) := by
  induction m with
  | zero => simp
  | succ m ih =>
    rw [Nat.succ_mul, Finset.sum_range_add, ih, Finset.sum_range_succ, Nat.mul_comm m b]

/-- The sum over 16384 rows is the sum over 16 blocks of 1024 rows. -/
theorem sum_blocks (g : ℕ → ℝ) :
    ∑ r : Fin 16384, g r.val = ∑ n ∈ Finset.range 16, ∑ r : Fin 1024, g (1024 * n + r.val) := by
  have h : ∑ r : Fin 16384, g r.val = ∑ k ∈ Finset.range (16 * 1024), g k :=
    Fin.sum_univ_eq_sum_range (fun k => g k) 16384
  rw [h, sum_range_mul]
  exact Finset.sum_congr rfl fun n _ => (Fin.sum_univ_eq_sum_range (fun r => g (1024 * n + r)) 1024).symm

/-- The sum over 16 blocks is the sum over the first 8 plus the sum over the last 8. -/
theorem sum_two_runs (h : ℕ → ℝ) :
    ∑ n ∈ Finset.range 16, h n
      = (∑ s ∈ Finset.range 8, h (0 + s)) + (∑ s ∈ Finset.range 8, h (8 + s)) := by
  have e : ∑ n ∈ Finset.range (8 + 8), h n
      = (∑ s ∈ Finset.range 8, h s) + (∑ s ∈ Finset.range 8, h (8 + s)) := Finset.sum_range_add h 8 8
  simp only [zero_add]
  exact e

end Cert.CosRegroup
-- ==== Proof.Blocks.lean ====
/-
  The two losses as sums of per-block totals.

  Number the 16384 rows by natural numbers and extend both arrays by zero rows past the last one.  Block n holds the
  1024 rows 1024 * n + r, r < 1024.  Its total of squares is the sum of the sums of squares of its rows of zc; its
  total of cosines is the sum, over the four slabs v of zs and over its rows, of the cosine (with clamped norms) of
  the row of zc and the same row of slab v.  Since the 16 blocks partition the rows, the sum over all rows of any
  per-row quantity is the sum of the block totals, and the 16 blocks are taken as two runs of 8.  For the cosines
  the sum over the slabs is exchanged with the sum over the blocks.
-/
import proofs.«121926_j36155034697795_2_alg».proof.Proof.Spec
import proofs.«121926_j36155034697795_2_alg».proof.Proof.Regroup

noncomputable section

namespace Cert.CosBlocks

open Cert.CosSpec Cert.CosRegroup

/-- Row k of zc, and of slab v of zs; zero past the last row. -/
def zcN (zc : Fin 16384 → Fin 512 → ℝ) (k : ℕ) : Fin 512 → ℝ := if h : k < 16384 then zc ⟨k, h⟩ else fun _ => 0
def zsN (zs : Fin 4 → Fin 16384 → Fin 512 → ℝ) (v : Fin 4) (k : ℕ) : Fin 512 → ℝ :=
  if h : k < 16384 then zs v ⟨k, h⟩ else fun _ => 0

/-- Block n's total of squares, and of cosines over the four slabs. -/
def bSq (zc : Fin 16384 → Fin 512 → ℝ) (n : ℕ) : ℝ := ∑ r : Fin 1024, CosSpec.sq (zcN zc (1024 * n + r.val))
def bCos (zc : Fin 16384 → Fin 512 → ℝ) (zs : Fin 4 → Fin 16384 → Fin 512 → ℝ) (n : ℕ) : ℝ :=
  ∑ v : Fin 4, ∑ r : Fin 1024, cosr (zcN zc (1024 * n + r.val)) (zsN zs v (1024 * n + r.val))

/-- Below the number of rows the extended array is the array. -/
theorem zcN_lt (zc : Fin 16384 → Fin 512 → ℝ) (k : ℕ) (h : k < 16384) : zcN zc k = zc ⟨k, h⟩ := dif_pos h
theorem zsN_lt (zs : Fin 4 → Fin 16384 → Fin 512 → ℝ) (v : Fin 4) (k : ℕ) (h : k < 16384) :
    zsN zs v k = zs v ⟨k, h⟩ := dif_pos h

theorem zcN_val (zc : Fin 16384 → Fin 512 → ℝ) (r : Fin 16384) : zcN zc r.val = zc r := zcN_lt zc r.val r.isLt
theorem zsN_val (zs : Fin 4 → Fin 16384 → Fin 512 → ℝ) (v : Fin 4) (r : Fin 16384) : zsN zs v r.val = zs v r :=
  zsN_lt zs v r.val r.isLt

/-- The sum of the squares of all rows is the sum of the 16 block totals. -/
theorem sum_sq_blocks (zc : Fin 16384 → Fin 512 → ℝ) :
    ∑ r : Fin 16384, CosSpec.sq (zc r) = ∑ n ∈ Finset.range 16, bSq zc n := by
  calc ∑ r : Fin 16384, CosSpec.sq (zc r)
      = ∑ r : Fin 16384, CosSpec.sq (zcN zc r.val) :=
        Finset.sum_congr rfl fun r _ => by rw [zcN_val]
    _ = ∑ n ∈ Finset.range 16, ∑ r : Fin 1024, CosSpec.sq (zcN zc (1024 * n + r.val)) :=
        sum_blocks fun k => CosSpec.sq (zcN zc k)
    _ = ∑ n ∈ Finset.range 16, bSq zc n := rfl

/-- The sum of the cosines over all slabs and rows is the sum of the 16 block totals. -/
theorem sum_cos_blocks (zc : Fin 16384 → Fin 512 → ℝ) (zs : Fin 4 → Fin 16384 → Fin 512 → ℝ) :
    ∑ v : Fin 4, ∑ r : Fin 16384, cosr (zc r) (zs v r) = ∑ n ∈ Finset.range 16, bCos zc zs n := by
  calc ∑ v : Fin 4, ∑ r : Fin 16384, cosr (zc r) (zs v r)
      = ∑ v : Fin 4, ∑ r : Fin 16384, cosr (zcN zc r.val) (zsN zs v r.val) :=
        Finset.sum_congr rfl fun v _ => Finset.sum_congr rfl fun r _ => by rw [zcN_val, zsN_val]
    _ = ∑ v : Fin 4, ∑ n ∈ Finset.range 16, ∑ r : Fin 1024,
          cosr (zcN zc (1024 * n + r.val)) (zsN zs v (1024 * n + r.val)) :=
        Finset.sum_congr rfl fun v _ => sum_blocks fun k => cosr (zcN zc k) (zsN zs v k)
    _ = ∑ n ∈ Finset.range 16, ∑ v : Fin 4, ∑ r : Fin 1024,
          cosr (zcN zc (1024 * n + r.val)) (zsN zs v (1024 * n + r.val)) := Finset.sum_comm
    _ = ∑ n ∈ Finset.range 16, bCos zc zs n := rfl

/-- The first loss: minus the block totals of squares, in two runs of 8 blocks. -/
theorem common_eq (zc : Fin 16384 → Fin 512 → ℝ) :
    common zc = -((∑ s ∈ Finset.range 8, bSq zc (0 + s)) + (∑ s ∈ Finset.range 8, bSq zc (8 + s))) := by
  unfold common
  rw [sum_sq_blocks, sum_two_runs (bSq zc)]

/-- The second loss: minus the block totals of cosines, in two runs of 8 blocks. -/
theorem special_eq (zc : Fin 16384 → Fin 512 → ℝ) (zs : Fin 4 → Fin 16384 → Fin 512 → ℝ) :
    special zc zs
      = -((∑ s ∈ Finset.range 8, bCos zc zs (0 + s)) + (∑ s ∈ Finset.range 8, bCos zc zs (8 + s))) := by
  unfold special
  rw [sum_cos_blocks, sum_two_runs (bCos zc zs)]

end Cert.CosBlocks

end
-- ==== Proof.KGlue.lean ====
/-
  The kernel's two sums as real numbers.

  When the two argument arrays are arrays of real numbers zc, zs, the block that grid step n reads is rows
  1024 n ... 1024 n + 1023 of zc (and of each slab of zs), so what the step adds to the accumulators is the negated
  real total of squares, resp. of cosines, of those rows; the two runs' totals, added by the host, are then
  common zc and special zc zs.
-/
import proofs.«121926_j36155034697795_2_alg».proof.Proof.KRun
import proofs.«121926_j36155034697795_2_alg».proof.Proof.KReal
import proofs.«121926_j36155034697795_2_alg».proof.Proof.Blocks

noncomputable section

open Idealize.ShloMosaic Idealize.ShloMosaic.TcCoe Idealize.SL.Sem Idealize.ShloMosaic.ValueIdx
open Idealize.ShloMosaic.Pipeline (Dat)

namespace Cert.KernelIdeal.Glue

open Cert.KernelIdeal Cert.KernelIdeal.Gen Cert.KernelIdeal.Pieces Cert.KernelIdeal.Payload Cert.KernelIdeal.Acc Cert.KernelIdeal.Final
open Cert.KernelIdeal.Run Cert.KernelIdeal.RealStep Cert.CosSpec Cert.CosBlocks

variable (m : (ℓ : Loc nD τ sig) → Buf (Elt Ideal) ℓ)

/-- Step t's block of zc is rows 1024 t ... of the first argument. -/
theorem iblkC_apply (c : Dev nD) (t : Fin cfg0.N) (r : Fin 1024) (d : Fin 512) (k : S16384x512.Idx)
    (hk0 : (k 0).val = 1024 * t.val + r.val) (hk1 : (k 1).val = d.val) :
    (iblk m c 0 t : Vec Ideal S1024x512 .f32) (ix2 r d) = (m ((c.tc : Thread nD τ).loc main_arg0) : S16384x512.Idx → EReal) k := by
  have hi0 : win0_0.index t (0 : Fin 2) = t.val := (idx_facts t).2.2.2.2.2.2.1
  have hi1 : win0_0.index t (1 : Fin 2) = 0 := (idx_facts t).2.2.2.2.2.2.2.1
  unfold iblk
  rw [View.read_apply]
  show V m c main_arg0 _ = m (c.tc.loc main_arg0) _
  rw [V_main_arg0]
  refine congrArg _ (funext fun a => Fin.ext ?_)
  match a with
  | ⟨0, _⟩ => (show win0_0.index t (0 : Fin 2) * 1024 + 1 * r.val = (k 0).val; omega)
  | ⟨1, _⟩ => (show win0_0.index t (1 : Fin 2) * 512 + 1 * d.val = (k 1).val; omega)

/-- Step t's block of zs is rows 1024 t ... of every slab of the second argument. -/
theorem iblkS_apply (c : Dev nD) (t : Fin cfg0.N) (v : Fin 4) (r : Fin 1024) (d : Fin 512) (k : S4x16384x512.Idx)
    (hk0 : (k 0).val = v.val) (hk1 : (k 1).val = 1024 * t.val + r.val) (hk2 : (k 2).val = d.val) :
    (iblk m c 1 t : Vec Ideal S4x1024x512 .f32) (ix3 v r d) = (m ((c.tc : Thread nD τ).loc main_arg1) : S4x16384x512.Idx → EReal) k := by
  have hi0 : win0_1.index t (0 : Fin 3) = 0 := (idx_facts t).2.2.2.2.2.2.2.2.1
  have hi1 : win0_1.index t (1 : Fin 3) = t.val := (idx_facts t).2.2.2.2.2.2.2.2.2.1
  have hi2 : win0_1.index t (2 : Fin 3) = 0 := (idx_facts t).2.2.2.2.2.2.2.2.2.2
  unfold iblk
  rw [View.read_apply]
  show V m c main_arg1 _ = m (c.tc.loc main_arg1) _
  rw [V_main_arg1]
  refine congrArg _ (funext fun a => Fin.ext ?_)
  match a with
  | ⟨0, _⟩ => (show win0_1.index t (0 : Fin 3) * 4 + 1 * v.val = (k 0).val; omega)
  | ⟨1, _⟩ => (show win0_1.index t (1 : Fin 3) * 1024 + 1 * r.val = (k 1).val; omega)
  | ⟨2, _⟩ => (show win0_1.index t (2 : Fin 3) * 512 + 1 * d.val = (k 2).val; omega)

section Real

variable (zc : Fin 16384 → Fin 512 → ℝ) (zs : Fin 4 → Fin 16384 → Fin 512 → ℝ) (c : Dev nD)
variable (e0 : m ((c.tc : Thread nD τ).loc main_arg0) = liftA zc) (e1 : m ((c.tc : Thread nD τ).loc main_arg1) = liftB zs)

include e0 in
/-- The entries of step n's block of zc are the real entries of rows 1024 n + r. -/
theorem blkC_real (n : ℕ) (h : n < cfg0.N) (r : Fin 1024) (d : Fin 512) :
    blkC m c n h (ix2 r d) = ((zcN zc (1024 * n + r.val) d : ℝ) : EReal) := by
  have hN : cfg0.N = 16 := N_0
  have hr := r.isLt
  have hk : 1024 * n + r.val < 16384 := by omega
  refine (iblkC_apply m c ⟨n, h⟩ r d (ix2 ⟨1024 * n + r.val, hk⟩ d) rfl rfl).trans ?_
  rw [e0, zcN_lt zc _ hk]; rfl

include e1 in
theorem blkS_real (n : ℕ) (h : n < cfg0.N) (v : Fin 4) (r : Fin 1024) (d : Fin 512) :
    blkS m c n h (ix3 v r d) = ((zsN zs v (1024 * n + r.val) d : ℝ) : EReal) := by
  have hN : cfg0.N = 16 := N_0
  have hr := r.isLt
  have hk : 1024 * n + r.val < 16384 := by omega
  refine (iblkS_apply m c ⟨n, h⟩ v r d (ix3 v ⟨1024 * n + r.val, hk⟩ d) rfl rfl rfl).trans ?_
  rw [e1, zsN_lt zs v _ hk]; rfl

include e0 in
/-- What step n adds to the first accumulator is the negated real total of squares of block n. -/
theorem addC_real (n : ℕ) (hn : n < 16) (y : S1x8x128.Idx) : addC m c n y = ((-(bSq zc n) : ℝ) : EReal) := by
  have hN : cfg0.N = 16 := N_0
  have h : n < cfg0.N := by omega
  unfold addC; rw [dif_pos h]
  exact blkSq_real (blkC m c n h) (fun r => zcN zc (1024 * n + r.val)) (fun r d => blkC_real m zc c e0 n h r d)

include e0 e1 in
/-- What step n adds to the second accumulator is the negated real total of cosines of block n. -/
theorem addS_real (n : ℕ) (hn : n < 16) (y : S1x8x128.Idx) : addS m c n y = ((-(bCos zc zs n) : ℝ) : EReal) := by
  have hN : cfg0.N = 16 := N_0
  have h : n < cfg0.N := by omega
  unfold addS; rw [dif_pos h]
  exact blkCos_real (blkC m c n h) (blkS m c n h) (fun r => zcN zc (1024 * n + r.val)) (fun v r => zsN zs v (1024 * n + r.val))
    (fun r d => blkC_real m zc c e0 n h r d) (fun v r d => blkS_real m zs c e1 n h v r d)

/-- 0 plus eight negated reals, in the extended reals, is the negated real sum. -/
theorem zero_add_sum_neg (f : ℕ → ℝ) (g : ℕ → EReal) (hg : ∀ s ∈ Finset.range 8, g s = ((-(f s) : ℝ) : EReal)) :
    zeroE + ∑ s ∈ Finset.range 8, g s = ((-(∑ s ∈ Finset.range 8, f s) : ℝ) : EReal) := by
  rw [Finset.sum_congr rfl hg, coe_sum, zeroE_eq, ← EReal.coe_add, Finset.sum_neg_distrib, zero_add]

include e0 in
theorem gC_real (q : Fin 2) (s : Fin 8) (l : Fin 128) :
    gC m c (ix3 q s l) = ((-(∑ s ∈ Finset.range 8, bSq zc (8 * q.val + s)) : ℝ) : EReal) := by
  have hq := q.isLt
  unfold gC
  show zeroE + ∑ s ∈ Finset.range 8, addC m c (8 * q.val + s) y0 = _
  exact zero_add_sum_neg (fun s => bSq zc (8 * q.val + s)) _ (fun s hs => addC_real m zc c e0 _ (by have := Finset.mem_range.mp hs; omega) y0)

include e0 e1 in
theorem gS_real (q : Fin 2) (s : Fin 8) (l : Fin 128) :
    gS m c (ix3 q s l) = ((-(∑ s ∈ Finset.range 8, bCos zc zs (8 * q.val + s)) : ℝ) : EReal) := by
  have hq := q.isLt
  unfold gS
  show zeroE + ∑ s ∈ Finset.range 8, addS m c (8 * q.val + s) y0 = _
  exact zero_add_sum_neg (fun s => bCos zc zs (8 * q.val + s)) _ (fun s hs => addS_real m zc zs c e0 e1 _ (by have := Finset.mem_range.mp hs; omega) y0)

end Real

/-- A sum over the indices of a vector is the sum over its one coordinate. -/
def idxEquiv1 {n : Nat} : (⟨1, ![n]⟩ : Shape).Idx ≃ Fin n where
  toFun i := i 0
  invFun a := ix1 a
  left_inv i := (eq_ix1 i).symm
  right_inv _ := rfl
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The host's sum over the two runs, read: 0 plus the two entries. -/
theorem coreSum_apply (a : FVec Ideal S2x8x128 .f32) (j : S_.Idx) :
    coreSum a j = zeroE + (a (ix3 0 0 0) + a (ix3 1 0 0)) := by
  unfold coreSum
  simp only [Host.reduceAdd, Ideal.hostReduceAdd_def]
  rw [Ideal.hostReduceAdd_total reducesTo_S2_S_d0 (fun b => b.elim0)]
  refine congrArg₂ (· + ·) rfl ?_
  refine (sum_idx1 _).trans ?_
  rw [Fin.sum_univ_two]
  refine congrArg₂ (· + ·) ?_ ?_
  · refine (shapeCast_apply _ shapeCasts_S2x1x1_S2 _ (ix3 0 0 0) (by rw [Shape.rowMajor_val_one, Shape.rowMajor_val_three]; rfl)).trans ?_
    exact extractStridedSlice_apply _ a _ _ (ix3 0 0 0) (fun b => by match b with | ⟨0, _⟩ => rfl | ⟨1, _⟩ => rfl | ⟨2, _⟩ => rfl)
  · refine (shapeCast_apply _ shapeCasts_S2x1x1_S2 _ (ix3 1 0 0) (by rw [Shape.rowMajor_val_one, Shape.rowMajor_val_three]; rfl)).trans ?_
    exact extractStridedSlice_apply _ a _ _ (ix3 1 0 0) (fun b => by match b with | ⟨0, _⟩ => rfl | ⟨1, _⟩ => rfl | ⟨2, _⟩ => rfl)

section Real2

variable (zc : Fin 16384 → Fin 512 → ℝ) (zs : Fin 4 → Fin 16384 → Fin 512 → ℝ) (c : Dev nD)
variable (e0 : m ((c.tc : Thread nD τ).loc main_arg0) = liftA zc) (e1 : m ((c.tc : Thread nD τ).loc main_arg1) = liftB zs)

include e0 in
/-- The first component of the kernel's result is common zc. -/
theorem coreSumC (j : S_.Idx) : coreSum (gC m c) j = ((common zc : ℝ) : EReal) := by
  rw [coreSum_apply, gC_real m zc c e0 0 0 0, gC_real m zc c e0 1 0 0, zeroE_eq, ← EReal.coe_add, ← EReal.coe_add, common_eq]
  refine congrArg _ ?_
  show 0 + (-(∑ s ∈ Finset.range 8, bSq zc (8 * 0 + s)) + -(∑ s ∈ Finset.range 8, bSq zc (8 * 1 + s))) = _
  rw [Nat.mul_zero, Nat.mul_one]; ring

include e0 e1 in
/-- The second component of the kernel's result is special zc zs. -/
theorem coreSumS (j : S_.Idx) : coreSum (gS m c) j = ((special zc zs : ℝ) : EReal) := by
  rw [coreSum_apply, gS_real m zc zs c e0 e1 0 0 0, gS_real m zc zs c e0 e1 1 0 0, zeroE_eq, ← EReal.coe_add, ← EReal.coe_add, special_eq]
  refine congrArg _ ?_
  show 0 + (-(∑ s ∈ Finset.range 8, bCos zc zs (8 * 0 + s)) + -(∑ s ∈ Finset.range 8, bCos zc zs (8 * 1 + s))) = _
  rw [Nat.mul_zero, Nat.mul_one]; ring

end Real2

end Cert.KernelIdeal.Glue

end
-- ==== Proof.RefSide.lean ====
/-
  The reference program computes the pair (common, special).

  The reference forms, for each row x of either argument, the sum of squares of x, its square root, and the
  maximum of that root with the positive constant e: the clamped norm |x|_e.  It divides every entry of the row by
  |x|_e, multiplies the normalised rows of zc and zs[v] entry by entry, sums all 4 * 16384 * 512 products and negates.
  For inputs that are real numbers every intermediate value is again a real number: a sum of reals, the root of a
  nonnegative real, a maximum of two reals, a quotient by the nonzero real |x|_e.  So each stage, read at an index
  given by its coordinates, is the embedding of an explicit real expression, and the last step is the identity

    sum_d (a_d / n) * (b_d / m) = (sum_d a_d * b_d) / (n * m)

  in the reals, applied per pair (v, r).  The first result is minus the sum of all squares of zc, read the same way.
-/
import proofs.«121926_j36155034697795_2_alg».proof.Proof.Spec
import proofs.«121926_j36155034697795_2_alg».proof.Proof.Gen.ReferenceIdeal.Read
import Idealize.ShloMosaic.Lib.ValueIdx
import Idealize.ShloMosaic.PureOps.Ideal.Laws

noncomputable section

namespace Cert.CosRef

open Cert.ReferenceIdeal Cert.ReferenceIdeal.Read Cert.CosSpec Idealize.ShloMosaic Idealize.ShloMosaic.ValueIdx

/-! ## A sum over a rank-3 index set is the triple sum over its coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The arguments at an index given by coordinates -/

theorem liftA_ix (zc : Fin 16384 → Fin 512 → ℝ) (r : Fin 16384) (d : Fin 512) :
    liftA zc (ix2 r d) = ((zc r d : ℝ) : EReal) := rfl

theorem liftB_ix (zs : Fin 4 → Fin 16384 → Fin 512 → ℝ) (v : Fin 4) (r : Fin 16384) (d : Fin 512) :
    liftB zs (ix3 v r d) = ((zs v r d : ℝ) : EReal) := rfl

/-! ## The first argument: sums of squares of rows, clamped norms, normalised rows -/

/-- The sum of squares of row r of zc. -/
theorem sqA (zc : Fin 16384 → Fin 512 → ℝ) (r : Fin 16384) :
    val_main_call0_v1 (F := Ideal) (liftA zc) (ix1 r) = ((sq (zc r) : ℝ) : EReal) := by
  rw [val_main_call0_v1_apply]
  have h : ∀ k : Fin 512, idx_main_call0_v1 (ix1 r) k = ix2 r k := fun k =>
    funext fun a => by match a with | ⟨0, _⟩ => rfl | ⟨1, _⟩ => rfl
  simp only [val_main_call0_cst_apply, val_main_call0_v0_apply, h, liftA_ix, Ideal.ofBits_def, Ideal.mulf_def,
    ofBits_zero, zero_add, ← EReal.coe_mul, coe_sum]
  rfl

/-- The clamped norm of row r of zc. -/
theorem nrmA (zc : Fin 16384 → Fin 512 → ℝ) (r : Fin 16384) :
    val_main_v5 (F := Ideal) (liftA zc) (ix2 r (0 : Fin 1)) = ((nrm (zc r) : ℝ) : EReal) := by
  rw [val_main_v5_apply, val_main_v3_apply, val_main_call0_v2_apply, val_main_v4_apply, val_main_cst_0_apply]
  have h : idx_main_call0_v2 (ix2 r (0 : Fin 1)) = ix1 r :=
    funext fun a => by match a with | ⟨0, _⟩ => rfl
  rw [h, sqA]
  simp only [Ideal.maximumf_def, Ideal.hostUnary_sqrt_def, Ideal.ofBits_def, ofBits_eps,
    sqrt_coe_nonneg (CosSpec.sq_nonneg _), max_coe]
  rfl

/-- Row r of zc divided by its clamped norm. -/
theorem unitA (zc : Fin 16384 → Fin 512 → ℝ) (r : Fin 16384) (d : Fin 512) :
    val_main_v7 (F := Ideal) (liftA zc) (ix2 r d) = ((zc r d / nrm (zc r) : ℝ) : EReal) := by
  rw [val_main_v7_apply, val_main_v6_apply]
  have h : idx_main_v6 (ix2 r d) = ix2 r (0 : Fin 1) :=
    funext fun a => by match a with | ⟨0, _⟩ => rfl | ⟨1, _⟩ => rfl
  rw [h, nrmA, liftA_ix, Ideal.hostDivf_def, div_coe_coe _ (nrm_ne _)]

/-! ## The second argument -/

/-- The sum of squares of row (v, r) of zs. -/
theorem sqB (zs : Fin 4 → Fin 16384 → Fin 512 → ℝ) (v : Fin 4) (r : Fin 16384) :
    val_main_call1_v1 (F := Ideal) (liftB zs) (ix2 v r) = ((sq (zs v r) : ℝ) : EReal) := by
  rw [val_main_call1_v1_apply]
  have h : ∀ k : Fin 512, idx_main_call1_v1 (ix2 v r) k = ix3 v r k := fun k =>
    funext fun a => by match a with | ⟨0, _⟩ => rfl | ⟨1, _⟩ => rfl | ⟨2, _⟩ => rfl
  simp only [val_main_call1_cst_apply, val_main_call1_v0_apply, h, liftB_ix, Ideal.ofBits_def, Ideal.mulf_def,
    ofBits_zero, zero_add, ← EReal.coe_mul, coe_sum]
  rfl

/-- The clamped norm of row (v, r) of zs. -/
theorem nrmB (zs : Fin 4 → Fin 16384 → Fin 512 → ℝ) (v : Fin 4) (r : Fin 16384) :
    val_main_v10 (F := Ideal) (liftB zs) (ix3 v r (0 : Fin 1)) = ((nrm (zs v r) : ℝ) : EReal) := by
  rw [val_main_v10_apply, val_main_v8_apply, val_main_call1_v2_apply, val_main_v9_apply, val_main_cst_1_apply]
  have h : idx_main_call1_v2 (ix3 v r (0 : Fin 1)) = ix2 v r :=
    funext fun a => by match a with | ⟨0, _⟩ => rfl | ⟨1, _⟩ => rfl
  rw [h, sqB]
  simp only [Ideal.maximumf_def, Ideal.hostUnary_sqrt_def, Ideal.ofBits_def, ofBits_eps,
    sqrt_coe_nonneg (CosSpec.sq_nonneg _), max_coe]
  rfl

/-- Row (v, r) of zs divided by its clamped norm. -/
theorem unitB (zs : Fin 4 → Fin 16384 → Fin 512 → ℝ) (v : Fin 4) (r : Fin 16384) (d : Fin 512) :
    val_main_v12 (F := Ideal) (liftB zs) (ix3 v r d) = ((zs v r d / nrm (zs v r) : ℝ) : EReal) := by
  rw [val_main_v12_apply, val_main_v11_apply]
  have h : idx_main_v11 (ix3 v r d) = ix3 v r (0 : Fin 1) :=
    funext fun a => by match a with | ⟨0, _⟩ => rfl | ⟨1, _⟩ => rfl | ⟨2, _⟩ => rfl
  rw [h, nrmB, liftB_ix, Ideal.hostDivf_def, div_coe_coe _ (nrm_ne _)]

/-! ## The products of the normalised rows -/

/-- The entry (v, r, d) of the product: the normalised row r of zc, repeated for every v, times the normalised
    row (v, r) of zs. -/
theorem prodAB (zc : Fin 16384 → Fin 512 → ℝ) (zs : Fin 4 → Fin 16384 → Fin 512 → ℝ)
    (v : Fin 4) (r : Fin 16384) (d : Fin 512) :
    val_main_v15 (F := Ideal) (liftA zc) (liftB zs) (ix3 v r d)
      = (((zc r d / nrm (zc r)) * (zs v r d / nrm (zs v r)) : ℝ) : EReal) := by
  rw [val_main_v15_apply, val_main_v14_apply, val_main_v13_apply]
  have h : idx_main_v13 (idx_main_v14 (ix3 v r d)) = ix2 r d :=
    funext fun a => by match a with | ⟨0, _⟩ => rfl | ⟨1, _⟩ => rfl
  rw [h, unitA, unitB, Ideal.mulf_def, ← EReal.coe_mul]

/-! ## The two results -/

/-- The first result: minus the sum of the squares of all entries of zc. -/
theorem ref_common (zc : Fin 16384 → Fin 512 → ℝ) (j : Cert.ReferenceIdeal.S_.Idx) :
    Cert.ReferenceIdeal.Read.val_main_v2 (F := Ideal) (liftA zc) j = ((common zc : ℝ) : EReal) := by
  rw [val_main_v2_apply, val_main_v1_apply, val_main_cst_apply, sum_idx2]
  simp only [val_main_v0_apply, liftA_ix, Ideal.ofBits_def, Ideal.mulf_def, Ideal.hostNegf_def, Ideal.negf_def,
    ofBits_zero, zero_add, ← EReal.coe_mul, coe_sum, ← EReal.coe_neg]
  rfl

/-- Per pair of rows: the sum of the products of the normalised entries is the cosine with clamped norms. -/
theorem sum_unit_mul (x y : Fin 512 → ℝ) :
    ∑ d, (x d / nrm x) * (y d / nrm y) = cosr x y := by
  unfold cosr dot
  rw [Finset.sum_div]
  exact Finset.sum_congr rfl fun d _ => div_mul_div_comm _ _ _ _

/-- The second result: minus the sum over (v, r) of the cosines with clamped norms. -/
theorem ref_special (zc : Fin 16384 → Fin 512 → ℝ) (zs : Fin 4 → Fin 16384 → Fin 512 → ℝ)
    (j : Cert.ReferenceIdeal.S_.Idx) :
    Cert.ReferenceIdeal.Read.val_main_v17 (F := Ideal) (liftA zc) (liftB zs) j
      = ((special zc zs : ℝ) : EReal) := by
  rw [val_main_v17_apply, val_main_v16_apply, val_main_cst_2_apply, sum_idx3]
  simp only [prodAB, Ideal.ofBits_def, Ideal.hostNegf_def, Ideal.negf_def, ofBits_zero, zero_add, coe_sum,
    ← EReal.coe_neg, sum_unit_mul]
  rfl

end Cert.CosRef

end
-- ==== Proof.Finite.lean ====
/-
  The precondition says that both argument arrays hold real numbers.

  The printed predicate compares the absolute value of every entry of each array with +infinity (the word
  0x7F800000) and takes the conjunction of all the comparisons.  When that conjunction is 1, every comparison is 1,
  so every entry x satisfies max x (-x) < +infinity in the extended reals, which excludes x = +infinity and
  x = -infinity.  Choosing the real value of every entry gives real arrays whose embeddings are the two arguments.
-/
import proofs.«121926_j36155034697795_2_alg».proof.Proof.Spec
import proofs.«121926_j36155034697795_2_alg».proof.Pre_finite_inputs
import Idealize.ShloMosaic.Lib.ReduceAll
import Idealize.ShloMosaic.Lib.ValueIdx

noncomputable section

namespace Cert.CosFinite

open Idealize.ShloMosaic Idealize.ShloMosaic.ValueIdx Cert.CosSpec

/-- The word 0x7F800000 denotes +infinity. -/
theorem ofBits_inf : Ideal.ofBits .f32 0x7F800000#32 = (⊤ : EReal) := by
  simp [Ideal.ofBits, Ideal.ieee]

/-- An extended real whose absolute value compares below +infinity is a real number. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The shape of a scalar has exactly one index. -/
instance : Subsingleton Cert.Pre_finite_inputs.S_.Idx := ⟨fun a b => funext fun d => d.elim0⟩

/-- When the printed predicate is 1 at its one index, each argument array is the embedding of an array of real
    numbers: the real value of the entry at (r, d), respectively (v, r, d), is the witness, and every index is the
    index built from its own coordinates. -/
theorem real_of_finite [Cert.Pre_finite_inputs.Facts]
    (x0 : FVec Ideal Cert.Pre_finite_inputs.S16384x512 .f32) (x1 : FVec Ideal Cert.Pre_finite_inputs.S4x16384x512 .f32)
    (h : Cert.Pre_finite_inputs.fn (F := Ideal) x0 x1 = fun _ => 1#1) :
    ∃ (zc : Fin 16384 → Fin 512 → ℝ) (zs : Fin 4 → Fin 16384 → Fin 512 → ℝ), x0 = liftA zc ∧ x1 = liftB zs := by
  have h0 := congrFun h ix0
  dsimp only [Cert.Pre_finite_inputs.fn] at h0
  obtain ⟨ha, hb⟩ := IntOp.andi_eq_one.1 h0
  have ea : ∀ i, ∃ r : ℝ, x0 i = (r : EReal) := fun i =>
    real_of_abs_lt (x0 i) (Host.reduce_andi_all _ _ _ _ _ ha i)
  have eb : ∀ i, ∃ r : ℝ, x1 i = (r : EReal) := fun i =>
    real_of_abs_lt (x1 i) (Host.reduce_andi_all _ _ _ _ _ hb i)
  choose fa hfa using ea
  choose fb hfb using eb
  refine ⟨fun r d => fa (ix2 r d), fun v r d => fb (ix3 v r d), funext fun i => ?_, funext fun i => ?_⟩
  · rw [hfa i]
    exact congrArg (fun j => ((fa j : ℝ) : EReal)) (eq_ix2 i)
  · rw [hfb i]
    exact congrArg (fun j => ((fb j : ℝ) : EReal)) (eq_ix3 i)

end Cert.CosFinite

end
-- ==== Proof.lean ====
/-
  The kernel and its reference compute the same pair of losses.

  Inputs zc (16384 x 512) and zs (4 x 16384 x 512).  With |x|_e = max (sqrt (sum_d x_d^2)) e the Euclidean norm of a
  row clamped below by the constant e > 0, both programs compute

    ( - sum_r sum_d zc[r,d]^2 ,   - sum_v sum_r <zc[r], zs[v,r]> / (|zc[r]|_e * |zs[v,r]|_e) ).

  The reference normalises every row of zc and of zs, multiplies entrywise and sums everything; the kernel walks the
  rows in sixteen blocks of 1024, forms per row the inner product divided by the product of the two clamped norms,
  keeps one running total per run of eight blocks (each step adding 0 minus its block's total to the accumulator), and
  adds the two totals at the end.  Over the extended reals these agree once all inputs are real numbers: then every
  intermediate value is a real number, the clamped norms are positive, (x/a)(y/b) = xy/(ab), sums may be regrouped, and
  negation distributes over the sums.  That the inputs are real is what the precondition says.

  The frames of the two kernel programs and the reference's run are the generated ones; the ideal pass rewrote nothing.
-/
import proofs.«121926_j36155034697795_2_alg».proof.Defs
import proofs.«121926_j36155034697795_2_alg».proof.Proof.Gen.Kernel
import proofs.«121926_j36155034697795_2_alg».proof.Proof.Gen.Kernel.Skeleton
import proofs.«121926_j36155034697795_2_alg».proof.Proof.Gen.Kernel.Launch
import proofs.«121926_j36155034697795_2_alg».proof.Proof.Gen.Kernel.Points
import proofs.«121926_j36155034697795_2_alg».proof.Proof.Gen.Kernel.Frame
import proofs.«121926_j36155034697795_2_alg».proof.Proof.Gen.KernelIdeal
import proofs.«121926_j36155034697795_2_alg».proof.Proof.Gen.KernelIdeal.Skeleton
import proofs.«121926_j36155034697795_2_alg».proof.Proof.Gen.KernelIdeal.Launch
import proofs.«121926_j36155034697795_2_alg».proof.Proof.Gen.KernelIdeal.Points
import proofs.«121926_j36155034697795_2_alg».proof.Proof.Gen.KernelIdeal.Frame
import proofs.«121926_j36155034697795_2_alg».proof.Proof.Gen.ReferenceIdeal
import proofs.«121926_j36155034697795_2_alg».proof.Proof.Gen.ReferenceIdeal.Run
import proofs.«121926_j36155034697795_2_alg».proof.Proof.Gen.ReferenceIdeal.Read
import proofs.«121926_j36155034697795_2_alg».proof.Proof.Gen.Pre_finite_inputs
import proofs.«121926_j36155034697795_2_alg».proof.Proof.KGlue
import proofs.«121926_j36155034697795_2_alg».proof.Proof.RefSide
import proofs.«121926_j36155034697795_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the pair (common zc, special zc zs) of the real arrays zc, zs the precondition provides. -/
theorem algebraic : Cert.algebraic_KernelIdeal_ReferenceIdeal := by
  intro m ρ m' ρ' hpre hagree
  refine ⟨fun c => Cert.KernelIdeal.Run.pair (Cert.KernelIdeal.Run.coreSum (Cert.KernelIdeal.Final.gC m c))
    (Cert.KernelIdeal.Run.coreSum (Cert.KernelIdeal.Final.gS m c)), Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨zc, zs, e0, e1⟩ := Cert.CosFinite.real_of_finite _ _ (hpre c)
  rw [(hagree c).1, (hagree c).2, e0, e1]
  refine (Cert.ReferenceIdeal.Read.val_main_v20_eq (F := Ideal) (Cert.CosSpec.liftA zc) (Cert.CosSpec.liftB zs)).trans ?_
  have hC : Cert.ReferenceIdeal.Read.val_main_v2 (F := Ideal) (Cert.CosSpec.liftA zc)
      = Cert.KernelIdeal.Run.coreSum (Cert.KernelIdeal.Final.gC m c) :=
    funext fun j => (Cert.CosRef.ref_common zc j).trans (Cert.KernelIdeal.Glue.coreSumC m zc c e0 j).symm
  have hS : Cert.ReferenceIdeal.Read.val_main_v17 (F := Ideal) (Cert.CosSpec.liftA zc) (Cert.CosSpec.liftB zs)
      = Cert.KernelIdeal.Run.coreSum (Cert.KernelIdeal.Final.gS m c) :=
    funext fun j => (Cert.CosRef.ref_special zc zs j).trans (Cert.KernelIdeal.Glue.coreSumS m zc zs c e0 e1 j).symm
  show Cert.KernelIdeal.Run.pair (Cert.ReferenceIdeal.Read.val_main_v2 (F := Ideal) (Cert.CosSpec.liftA zc))
    (Cert.ReferenceIdeal.Read.val_main_v17 (F := Ideal) (Cert.CosSpec.liftA zc) (Cert.CosSpec.liftB zs)) = _
  rw [hC, hS]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
